-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg12 : FVec F S32 .f32) (main_arg13 : FVec F S32x64 .f32) (main_v48 : IVec S_ 1) (main_v49 : FVec F S32x64 .f32) (main_v50 : FVec F S32x64 .f32) : IVec S_ 1 :=
  let main_v51 : IVec S32x64 1 := cmpf .olt main_v49 main_v50
  let main_c_19 : IVec S_ 1 := constantI S_ 1 1#1
  let main_v52 : IVec S_ 1 := (fun x v => Host.reduce IntOp.andi x v reducesTo_S32x64_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x64 .f32 := Host.absf main_arg13
  let main_cst_22 : FVec F S_ .f32 := constant S_ .f32 0x7F800000#32
  let main_v60 : FVec F S32x64 .f32 := broadcastInDim S32x64 ![] bcast_S_S32x64 main_cst_22
  let main_v61 : IVec S32x64 1 := cmpf .olt main_v59 main_v60
  let main_c_23 : IVec S_ 1 := constantI S_ 1 1#1
  let main_v62 : IVec S_ 1 := (fun x v => Host.reduce IntOp.andi x v reducesTo_S32x64_S_d0_1 h_S_) main_v61 main_c_23
  let main_v63 : IVec S_ 1 := andi main_v58 main_v62
  main_v63

def fn_part2 {F : FTy → Type} [FloatOps F] (main_arg8 : FVec F S32x64 .f32) (main_arg9 : FVec F S32 .f32) (main_arg10 : FVec F S32x64 .f32) (main_arg11 : FVec F S32x64 .f32) (main_arg12 : FVec F S32 .f32) (main_arg13 : FVec F S32x64 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x64 .f32 := Host.absf main_arg10
  let main_cst_16 : FVec F S_ .f32 := constant S_ .f32 0x7F800000#32
  let main_v45 : FVec F S32x64 .f32 := broadcastInDim S32x64 ![] bcast_S_S32x64 main_cst_16
  let main_v46 : IVec S32x64 1 := cmpf .olt main_v44 main_v45
  let main_c_17 : IVec S_ 1 := constantI S_ 1 1#1
  let main_v47 : IVec S_ 1 := (fun x v => Host.reduce IntOp.andi x v reducesTo_S32x64_S_d0_1 h_S_) main_v46 main_c_17
  let main_v48 : IVec S_ 1 := andi main_v43 main_v47
  let main_v49 : FVec F S32x64 .f32 := Host.absf main_arg11
  let main_cst_18 : FVec F S_ .f32 := constant S_ .f32 0x7F800000#32
  let main_v50 : FVec F S32x64 .f32 := broadcastInDim S32x64 ![] bcast_S_S32x64 main_cst_18
  fn_part3 (F := F) main_arg12 main_arg13 main_v48 main_v49 main_v50

def fn_part1 {F : FTy → Type} [FloatOps F] (main_arg5 : FVec F S64x64 .f32) (main_arg6 : FVec F S64 .f32) (main_arg7 : FVec F S64x64 .f32) (main_arg8 : FVec F S32x64 .f32) (main_arg9 : FVec F S32 .f32) (main_arg10 : FVec F S32x64 .f32) (main_arg11 : FVec F S32x64 .f32) (main_arg12 : FVec F S32 .f32) (main_arg13 : FVec F S32x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S32x64 .f32) (main_arg9 : FVec F S32 .f32) (main_arg10 : FVec F S32x64 .f32) (main_arg11 : FVec F S32x64 .f32) (main_arg12 : FVec F S32 .f32) (main_arg13 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S64x32 : Shape := ⟨2, ![64, 32]⟩
abbrev S1x32 : Shape := ⟨2, ![1, 32]⟩
abbrev S100000x32 : Shape := ⟨2, ![100000, 32]⟩
abbrev S5000x32 : Shape := ⟨2, ![5000, 32]⟩

abbrev nBuf : Space → Nat
  | .hbm => 107
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S32x64, .f32⟩
  | .hbm, ⟨12, _⟩ => ⟨S32, .f32⟩
  | .hbm, ⟨13, _⟩ => ⟨S32x64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S64x64, .f32⟩
  | .hbm, ⟨47, _⟩ => ⟨S64x64, .f32⟩
  | .hbm, ⟨48, _⟩ => ⟨S1x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S64x64, .f32⟩
  | .hbm, ⟨66, _⟩ => ⟨S64x64, .f32⟩
  | .hbm, ⟨67, _⟩ => ⟨S1x64, .f32⟩
  | .hbm, ⟨68, _⟩ => ⟨S100000x64, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x64, .f32⟩
  | .hbm, ⟨78, _⟩ => ⟨S_, .f32⟩
  | .hbm, ⟨79, _⟩ => ⟨S100000x64, .f32⟩
  | .hbm, ⟨80, _⟩ => ⟨S1600000x1, .i32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S64x32, .f32⟩
  | .hbm, ⟨85, _⟩ => ⟨S64x32, .f32⟩
  | .hbm, ⟨86, _⟩ => ⟨S1x32, .f32⟩
  | .hbm, ⟨87, _⟩ => ⟨S100000x32, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S1600000x64, .f32⟩
  | .hbm, ⟨97, _⟩ => ⟨S_, .f32⟩
  | .hbm, ⟨98, _⟩ => ⟨S100000x64, .f32⟩
  | .hbm, ⟨99, _⟩ => ⟨S1600000x1, .i32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S64x32, .f32⟩
  | .hbm, ⟨104, _⟩ => ⟨S64x32, .f32⟩
  | .hbm, ⟨105, _⟩ => ⟨S1x32, .f32⟩
  | .hbm, ⟨106, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x32, .f32⟩
  | .local _ .vmem, ⟨23, _⟩ => ⟨S1x32, .f32⟩
  | .local _ .vmem, ⟨24, _⟩ => ⟨S64x32, .f32⟩
  | .local _ .vmem, ⟨25, _⟩ => ⟨S5000x32, .f32⟩
  | .local _ .vmem, ⟨26, _⟩ => ⟨S5000x32, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x32, .f32⟩
  | .local _ .vmem, ⟨32, _⟩ => ⟨S1x32, .f32⟩
  | .local _ .vmem, ⟨33, _⟩ => ⟨S64x32, .f32⟩
  | .local _ .vmem, ⟨34, _⟩ => ⟨S5000x32, .f32⟩
  | .local _ .vmem, ⟨35, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_c_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x32 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S32x64_S64x32_1_0 : S32x64.Transposes [1, 0] S64x32
  shapeCasts_S32_S1x32 : S32.ShapeCasts S1x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x32.size a ≤ S64x32.size a
  hwx3_2 : ∀ i : grid3.Coords, EltTy.bits .f32 = 32 ∨ (Rect.block (s := S64x32) S64x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x32.size a ≤ S64x32.size a
  hwx3_4 : ∀ i : grid3.Coords, EltTy.bits .f32 = 32 ∨ (Rect.block (s := S64x32) S64x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x32.size a ≤ S100000x32.size a
  hwx3_5 : ∀ i : grid3.Coords, EltTy.bits .f32 = 32 ∨ (Rect.block (s := S100000x32) S5000x32.size (cc3_transform_5 i) (hinb3_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v72) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S64x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S64x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S5000x32.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 156
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S32x64, .f32⟩
  | 9 => ⟨S32, .f32⟩
  | 10 => ⟨S32x64, .f32⟩
  | 11 => ⟨S32x64, .f32⟩
  | 12 => ⟨S32, .f32⟩
  | 13 => ⟨S32x64, .f32⟩
  | 14 => ⟨S1x1600000, .i32⟩
  | 15 => ⟨S1600000, .i32⟩
  | 16 => ⟨S1x1600000, .i32⟩
  | 17 => ⟨S1600000, .i32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x64, .f32⟩
  | 27 => ⟨S_, .f32⟩
  | 28 => ⟨S100000x64, .f32⟩
  | 29 => ⟨S1600000x1, .i32⟩
  | 30 => ⟨S100000x64, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S100000, .f32⟩
  | 40 => ⟨S100000x1, .f32⟩
  | 41 => ⟨S100000x64, .f32⟩
  | 42 => ⟨S100000x64, .f32⟩
  | 43 => ⟨S64x64, .f32⟩
  | 44 => ⟨S100000x64, .f32⟩
  | 45 => ⟨S1x64, .f32⟩
  | 46 => ⟨S100000x64, .f32⟩
  | 47 => ⟨S100000x64, .f32⟩
  | 48 => ⟨S64x64, .f32⟩
  | 49 => ⟨S100000x64, .f32⟩
  | 50 => ⟨S100000x64, .f32⟩
  | 51 => ⟨S_, .f32⟩
  | 52 => ⟨S100000x64, .f32⟩
  | 53 => ⟨S100000x64, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S_, .f32⟩
  | 68 => ⟨S1600000, .f32⟩
  | 69 => ⟨S_, .f32⟩
  | 70 => ⟨S100000, .f32⟩
  | 71 => ⟨S1600000x1, .i32⟩
  | 72 => ⟨S100000, .f32⟩
  | 73 => ⟨S_, .f32⟩
  | 74 => ⟨S100000, .f32⟩
  | 75 => ⟨S100000, .f32⟩
  | 76 => ⟨S100000x1, .f32⟩
  | 77 => ⟨S100000x64, .f32⟩
  | 78 => ⟨S100000x64, .f32⟩
  | 79 => ⟨S64x64, .f32⟩
  | 80 => ⟨S100000x64, .f32⟩
  | 81 => ⟨S1x64, .f32⟩
  | 82 => ⟨S100000x64, .f32⟩
  | 83 => ⟨S100000x64, .f32⟩
  | 84 => ⟨S64x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S_, .f32⟩
  | 104 => ⟨S1600000, .f32⟩
  | 105 => ⟨S_, .f32⟩
  | 106 => ⟨S100000, .f32⟩
  | 107 => ⟨S1600000x1, .i32⟩
  | 108 => ⟨S100000, .f32⟩
  | 109 => ⟨S_, .f32⟩
  | 110 => ⟨S100000, .f32⟩
  | 111 => ⟨S100000, .f32⟩
  | 112 => ⟨S100000x1, .f32⟩
  | 113 => ⟨S100000x64, .f32⟩
  | 114 => ⟨S100000x64, .f32⟩
  | 115 => ⟨S64x32, .f32⟩
  | 116 => ⟨S100000x32, .f32⟩
  | 117 => ⟨S1x32, .f32⟩
  | 118 => ⟨S100000x32, .f32⟩
  | 119 => ⟨S100000x32, .f32⟩
  | 120 => ⟨S64x32, .f32⟩
  | 121 => ⟨S100000x32, .f32⟩
  | 122 => ⟨S100000x32, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x64, .f32⟩
  | 4 => ⟨S_, .f32⟩
  | 5 => ⟨S100000x64, .f32⟩
  | 6 => ⟨S1600000x1, .i32⟩
  | 7 => ⟨S100000x64, .f32⟩
  | 8 => ⟨S_, .f32⟩
  | 9 => ⟨S1600000, .f32⟩
  | 10 => ⟨S_, .f32⟩
  | 11 => ⟨S100000, .f32⟩
  | 12 => ⟨S1600000x1, .i32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x64, .f32⟩
  | 19 => ⟨S100000x64, .f32⟩
  | 20 => ⟨S64x32, .f32⟩
  | 21 => ⟨S100000x32, .f32⟩
  | 22 => ⟨S1x32, .f32⟩
  | 23 => ⟨S100000x32, .f32⟩
  | 24 => ⟨S100000x32, .f32⟩
  | 25 => ⟨S64x32, .f32⟩
  | 26 => ⟨S100000x32, .f32⟩
  | 27 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call0_cst : Ref sig .tc := ⟨.hbm, 51, rfl⟩
abbrev main_call0_v0 : Ref sig .tc := ⟨.hbm, 52, rfl⟩
abbrev main_v31 : Ref sig .tc := ⟨.hbm, 53, rfl⟩
abbrev main_c_4 : Ref sig .tc := ⟨.hbm, 54, rfl⟩
abbrev main_v32 : Ref sig .tc := ⟨.hbm, 55, rfl⟩
abbrev main_v33 : Ref sig .tc := ⟨.hbm, 56, rfl⟩
abbrev main_c_5 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_7 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_9 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_c_10 : Ref sig .tc := ⟨.hbm, 90, rfl⟩
abbrev main_v60 : Ref sig .tc := ⟨.hbm, 91, rfl⟩
abbrev main_v61 : Ref sig .tc := ⟨.hbm, 92, rfl⟩
abbrev main_c_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_13 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_15 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_c_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_18 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_19 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_21 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run, with its two results kept.

  @main is eight segments: four stretches of host operations, each followed by one pallas region.  The buffer
  contents at the segment boundaries are the fold `W0 … W8` (a host stretch applies its operations; a region
  replaces its arrays by what its write-backs leave).  Every weakly fair execution from a memory `m` with zero
  counters terminates, faults nowhere, and ends with every unscoped buffer at the last boundary's contents
  `W8`: here that is read at the two result buffers (the mean head and the log-deviation head) and at the
  fourteen arguments, which no host operation and no region writes.
-/
import proofs.«138562_j36447092474375_1_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel's @main terminates without a fault; at the end the two
    result buffers hold the last boundary's contents and the arguments are as launched. -/
theorem run_results : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_v76) = W8 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       h c _ (mem_uc main_v76 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c)⟩)

end Cert.Sage.KernelRun

end
-- ==== Proof.Layer.lean ====
/-
  One SAGE layer's dense part, as ONE function of whole arrays, index by index, on the extended reals.

  For node features `x` (100000 rows of 64), the neighbourhood means `mean` (same shape), two weight
  matrices already transposed to 64 × d (`wl`, `wr`) and a bias row `b` (1 × d), entry (r, q) of the layer is

      (Σₖ mean(r,k) · wl(k,q)  +  Σₖ x(r,k) · wr(k,q))  +  b(0,q),

  the two sums over the 64 input features.  The two hidden layers (d = 64) end in a rectifier, `max · 0`;
  the two heads (d = 32) do not.  The zero of the rectifier is kept as the float word it is printed as:
  it is the same word on both sides of every equation it occurs in and is never evaluated.
-/
import Idealize.ShloMosaic.PureOps.Ideal
import Idealize.ShloMosaic.Lib.ValueIdx

noncomputable section

namespace Cert.Sage

open Idealize.ShloMosaic Idealize.ShloMosaic.ValueIdx

/-- The shapes of the layer: node features, hidden weights, head weights, bias rows, results. -/
abbrev Nodes64 : Shape := ⟨2, ![100000, 64]⟩
abbrev Nodes32 : Shape := ⟨2, ![100000, 32]⟩
abbrev W64 : Shape := ⟨2, ![64, 64]⟩
abbrev W32 : Shape := ⟨2, ![64, 32]⟩
abbrev B64 : Shape := ⟨2, ![1, 64]⟩
abbrev B32 : Shape := ⟨2, ![1, 32]⟩

/-- Entry (r, q) of a hidden layer before the rectifier: the mean's product with `wl`, plus the features'
    product with `wr`, plus the bias. -/
def dense64 (mean x : FVec Ideal Nodes64 .f32) (wl : FVec Ideal W64 .f32) (b : FVec Ideal B64 .f32)
    (wr : FVec Ideal W64 .f32) : FVec Ideal Nodes64 .f32 := fun i =>
  ((∑ k : Fin 64, mean (ix2 (i 0) k) * wl (ix2 k (i 1))) + (∑ k : Fin 64, x (ix2 (i 0) k) * wr (ix2 k (i 1))))
    + b (ix2 (0 : Fin 1) (i 1))

/-- A hidden layer: `dense64` through the rectifier. -/
def hidden64 (mean x : FVec Ideal Nodes64 .f32) (wl : FVec Ideal W64 .f32) (b : FVec Ideal B64 .f32)
    (wr : FVec Ideal W64 .f32) : FVec Ideal Nodes64 .f32 := fun i =>
  max (dense64 mean x wl b wr i) (Ideal.ofBits .f32 0x00000000#32)

/-- Entry (r, q) of a head (32 outputs, no rectifier). -/
def head32 (mean x : FVec Ideal Nodes64 .f32) (wl : FVec Ideal W32 .f32) (b : FVec Ideal B32 .f32)
    (wr : FVec Ideal W32 .f32) : FVec Ideal Nodes32 .f32 := fun i =>
  ((∑ k : Fin 64, mean (ix2 (i 0) k) * wl (ix2 k (i 1))) + (∑ k : Fin 64, x (ix2 (i 0) k) * wr (ix2 k (i 1))))
    + b (ix2 (0 : Fin 1) (i 1))

end Cert.Sage

end
-- ==== Proof.HostTerms.lean ====
/-
  The host side of one layer, as pure functions of arrays (any float instance).

  The edge list is a 2 × 1600000 integer array: row 0 the source node of each edge, row 1 its destination.
  `nbrSum s d f` adds, into row `d e` of a zero array, row `s e` of the features `f`, over all edges `e` (a
  negative source index is first wrapped by adding the number of nodes): the sum of the features over each
  node's in-neighbours.  `recipDeg d` is, as a column, the reciprocal of each node's in-degree clamped below by
  one — the degree being the same sum of ones.  `nbrMean` is their product, the mean over the in-neighbours
  (zero where there are none).
-/
import proofs.«138562_j36447092474375_1_alg».proof.Proof.Gen.KernelIdeal

noncomputable section

namespace Cert.Sage.K

open Cert.KernelIdeal Cert.KernelIdeal.Facts₀ Idealize.ShloMosaic

variable {F : FTy → Type} [FloatOps F]

/-- Row 0 of the edge list: the source node of each edge. -/
def src (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge list: the destination node of each edge. -/
def dst (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The in-degree of every node clamped below by one: ones summed over the edges into their destinations,
    then the maximum with one. -/
def clampedDeg (d : (⟨S1600000, .i32⟩ : BufTy).Contents (Elt F)) : (⟨S100000, .f32⟩ : BufTy).Contents (Elt F) :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 d)
      (broadcastInDim S1600000 ![] bcast_S_S1600000 (constant S_ .f32 0x3F800000#32)))
    (broadcastInDim S100000 ![] bcast_S_S100000 (constant S_ .f32 0x3F800000#32))

/-- The reciprocal of the clamped in-degree, as a column. -/
def recipDeg (d : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32)) (clampedDeg d))

/-- The sum of the features over each node's in-neighbours. -/
def nbrSum (s d : (⟨S1600000, .i32⟩ : BufTy).Contents (Elt F)) (f : (⟨S100000x64, .f32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 f
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The mean of the features over each node's in-neighbours, as the kernel's host side computes it: the sum
    times the reciprocal column `r` spread over the 64 features. -/
def nbrMean (s d : (⟨S1600000, .i32⟩ : BufTy).Contents (Elt F)) (r : (⟨S100000x1, .f32⟩ : BufTy).Contents (Elt F))
    (f : (⟨S100000x64, .f32⟩ : BufTy).Contents (Elt F)) : (⟨S100000x64, .f32⟩ : BufTy).Contents (Elt F) :=
  mulf (nbrSum s d f) (broadcastInDim S100000x64 ![0, 1] bcast_S100000x1_S100000x64_0_1 r)

end Cert.Sage.K

end
-- ==== Proof.Network.lean ====
/-
  The whole network as pure functions of the fourteen arguments, at the extended reals.

  Two hidden layers and two heads, each fed the current features and their mean over the in-neighbours:

      h₁ = hidden(mean x, x; W1l, b1, W1r),   h₂ = hidden(mean h₁, h₁; W2l, b2, W2r),
      mu = head(mean h₂, h₂; Wml, bm, Wmr),   logstd = head(mean h₂, h₂; Wsl, bs, Wsr).

  The weights enter transposed (64 × d) and the bias as a row (1 × d), spelt as the host operations spell them.
-/
import proofs.«138562_j36447092474375_1_alg».proof.Proof.Layer
import proofs.«138562_j36447092474375_1_alg».proof.Proof.HostTerms

noncomputable section

namespace Cert.Sage.Net

open Cert.KernelIdeal Cert.KernelIdeal.Facts₀ Idealize.ShloMosaic

/-- The in-neighbour mean of the features `f` along the edge list `ei`. -/
def mean (ei : (⟨S2x1600000, .i32⟩ : BufTy).Contents (Elt Ideal)) (f : (⟨S100000x64, .f32⟩ : BufTy).Contents (Elt Ideal)) :
    (⟨S100000x64, .f32⟩ : BufTy).Contents (Elt Ideal) :=
  K.nbrMean (K.src ei) (K.dst ei) (K.recipDeg (K.dst ei)) f

/-- A hidden layer on features `f`, from the weights and bias as the arguments give them (d × 64, d). -/
def hidden (ei : (⟨S2x1600000, .i32⟩ : BufTy).Contents (Elt Ideal)) (f : (⟨S100000x64, .f32⟩ : BufTy).Contents (Elt Ideal))
    (wl : (⟨S64x64, .f32⟩ : BufTy).Contents (Elt Ideal)) (b : (⟨S64, .f32⟩ : BufTy).Contents (Elt Ideal))
    (wr : (⟨S64x64, .f32⟩ : BufTy).Contents (Elt Ideal)) : (⟨S100000x64, .f32⟩ : BufTy).Contents (Elt Ideal) :=
  Cert.Sage.hidden64 (mean ei f) f (transpose S64x64 [1, 0] wl transposes_S64x64_S64x64_1_0) (shapeCast _ b shapeCasts_S64_S1x64)
    (transpose S64x64 [1, 0] wr transposes_S64x64_S64x64_1_0)

/-- A head on features `f`. -/
def head (ei : (⟨S2x1600000, .i32⟩ : BufTy).Contents (Elt Ideal)) (f : (⟨S100000x64, .f32⟩ : BufTy).Contents (Elt Ideal))
    (wl : (⟨S32x64, .f32⟩ : BufTy).Contents (Elt Ideal)) (b : (⟨S32, .f32⟩ : BufTy).Contents (Elt Ideal))
    (wr : (⟨S32x64, .f32⟩ : BufTy).Contents (Elt Ideal)) : (⟨S100000x32, .f32⟩ : BufTy).Contents (Elt Ideal) :=
  Cert.Sage.head32 (mean ei f) f (transpose S64x32 [1, 0] wl transposes_S32x64_S64x32_1_0) (shapeCast _ b shapeCasts_S32_S1x32)
    (transpose S64x32 [1, 0] wr transposes_S32x64_S64x32_1_0)

end Cert.Sage.Net

end
-- ==== Proof.Fold.lean ====
/-
  The buffer contents at the boundaries between the idealized kernel's segments, as pure functions of the launch
  memory.

  Before each region the host computes the in-neighbour mean of the current node features (`K.nbrMean`: gather
  along the edges' sources, sum into their destinations, times the reciprocal of the clamped in-degree) and
  transposes that layer's two weight matrices; the region then computes the layer (`Cert.Sage.hidden64` /
  `head32`) block by block.  The edge rows and the reciprocal-degree column are computed once, by the first
  stretch, and only read afterwards; no later stretch and no region writes them, nor the arguments.
-/
import proofs.«138562_j36447092474375_1_alg».proof.Proof.Gen.KernelIdeal.Frame
import proofs.«138562_j36447092474375_1_alg».proof.Proof.Network

set_option maxRecDepth 16384

noncomputable section

namespace Cert.Sage.Fold

open Cert.KernelIdeal Cert.KernelIdeal.Gen
open Idealize.ShloMosaic Idealize.ShloMosaic.TcCoe Idealize.ShloMosaic.Tactic Idealize.SL.Sem
open Idealize.ShloMosaic.StableHlo (after_cons after_nil)

variable (m : (ℓ : Loc nD τ sig) → Buf (Elt Ideal) ℓ) (ρ : Dev nD → PrngReg)

/-! ## What each region contributes

  That a region's output array, after the region has run over its twenty row blocks, is the layer function of the
  five arrays the region was entered with is proved per region elsewhere; the fold below takes it as a hypothesis. -/

/-- Region 0's output array after its run is the layer function of the region's five input arrays as the region found them. -/
def RegionValue0 : Prop :=
  ∀ (V : (c : Dev nD) → (b : Ref sig .tc) → Buf (Elt Ideal) ((c : Thread nD τ).loc b)) (c : Dev nD),
    (dat0 (F := Ideal) V c).arrAt 5 cfg0.N
      = Cert.Sage.hidden64 (V c (Pipeline.arrRef spec0 0)) (V c (Pipeline.arrRef spec0 1)) (V c (Pipeline.arrRef spec0 2))
          (V c (Pipeline.arrRef spec0 3)) (V c (Pipeline.arrRef spec0 4))
/-- Region 1's output array after its run is the layer function of the region's five input arrays as the region found them. -/
def RegionValue1 : Prop :=
  ∀ (V : (c : Dev nD) → (b : Ref sig .tc) → Buf (Elt Ideal) ((c : Thread nD τ).loc b)) (c : Dev nD),
    (dat1 (F := Ideal) V c).arrAt 5 cfg1.N
      = Cert.Sage.hidden64 (V c (Pipeline.arrRef spec1 0)) (V c (Pipeline.arrRef spec1 1)) (V c (Pipeline.arrRef spec1 2))
          (V c (Pipeline.arrRef spec1 3)) (V c (Pipeline.arrRef spec1 4))
/-- Region 2's output array after its run is the layer function of the region's five input arrays as the region found them. -/
def RegionValue2 : Prop :=
  ∀ (V : (c : Dev nD) → (b : Ref sig .tc) → Buf (Elt Ideal) ((c : Thread nD τ).loc b)) (c : Dev nD),
    (dat2 (F := Ideal) V c).arrAt 5 cfg2.N
      = Cert.Sage.head32 (V c (Pipeline.arrRef spec2 0)) (V c (Pipeline.arrRef spec2 1)) (V c (Pipeline.arrRef spec2 2))
          (V c (Pipeline.arrRef spec2 3)) (V c (Pipeline.arrRef spec2 4))
/-- Region 3's output array after its run is the layer function of the region's five input arrays as the region found them. -/
def RegionValue3 : Prop :=
  ∀ (V : (c : Dev nD) → (b : Ref sig .tc) → Buf (Elt Ideal) ((c : Thread nD τ).loc b)) (c : Dev nD),
    (dat3 (F := Ideal) V c).arrAt 5 cfg3.N
      = Cert.Sage.head32 (V c (Pipeline.arrRef spec3 0)) (V c (Pipeline.arrRef spec3 1)) (V c (Pipeline.arrRef spec3 2))
          (V c (Pipeline.arrRef spec3 3)) (V c (Pipeline.arrRef spec3 4))

/-- The first hidden layer of the launch memory's arguments. -/
abbrev h1 (c : Dev nD) : (⟨S100000x64, .f32⟩ : BufTy).Contents (Elt Ideal) :=
  Net.hidden (m ((c : Thread nD τ).loc main_arg1)) (m ((c : Thread nD τ).loc main_arg0)) (m ((c : Thread nD τ).loc main_arg2)) (m ((c : Thread nD τ).loc main_arg3)) (m ((c : Thread nD τ).loc main_arg4))
/-- The second hidden layer. -/
abbrev h2 (c : Dev nD) : (⟨S100000x64, .f32⟩ : BufTy).Contents (Elt Ideal) :=
  Net.hidden (m ((c : Thread nD τ).loc main_arg1)) (h1 m c) (m ((c : Thread nD τ).loc main_arg5)) (m ((c : Thread nD τ).loc main_arg6)) (m ((c : Thread nD τ).loc main_arg7))

/-! ## After the first host stretch (entry of region 0) -/
/-- The edges' sources. -/
theorem W1_src (c : Dev nD) : W1 m ρ c (Proc.devRef .tc main_v1) = (K.src (m ((c : Thread nD τ).loc main_arg1))) :=
  by dsimp only [W1, hostOps0]; after_results_simp <;> rfl
/-- The edges' destinations. -/
theorem W1_dst (c : Dev nD) : W1 m ρ c (Proc.devRef .tc main_v3) = (K.dst (m ((c : Thread nD τ).loc main_arg1))) :=
  by dsimp only [W1, hostOps0]; after_results_simp <;> rfl
/-- The reciprocal of the clamped in-degree. -/
theorem W1_recip (c : Dev nD) : W1 m ρ c (Proc.devRef .tc main_v12) = (K.recipDeg (K.dst (m ((c : Thread nD τ).loc main_arg1)))) :=
  by dsimp only [W1, hostOps0]; after_results_simp <;> rfl
/-- The mean of the input features over the in-neighbours. -/
theorem W1_mean (c : Dev nD) : W1 m ρ c (Proc.devRef .tc main_v24) = Net.mean (m ((c : Thread nD τ).loc main_arg1)) (m ((c : Thread nD τ).loc main_arg0)) :=
  by dsimp only [W1, hostOps0]; after_results_simp <;> rfl
/-- The first layer's left weights, transposed. -/
theorem W1_wl (c : Dev nD) : W1 m ρ c (Proc.devRef .tc main_v25) = (transpose S64x64 [1, 0] (m ((c : Thread nD τ).loc main_arg2)) Facts₀.transposes_S64x64_S64x64_1_0) :=
  by dsimp only [W1, hostOps0]; after_results_simp <;> rfl
/-- The first layer's right weights, transposed. -/
theorem W1_wr (c : Dev nD) : W1 m ρ c (Proc.devRef .tc main_v26) = (transpose S64x64 [1, 0] (m ((c : Thread nD τ).loc main_arg4)) Facts₀.transposes_S64x64_S64x64_1_0) :=
  by dsimp only [W1, hostOps0]; after_results_simp <;> rfl
/-- The first layer's bias as a row. -/
theorem W1_b (c : Dev nD) : W1 m ρ c (Proc.devRef .tc main_v27) = (shapeCast _ (m ((c : Thread nD τ).loc main_arg3)) Facts₀.shapeCasts_S64_S1x64) :=
  by dsimp only [W1, hostOps0]; after_results_simp <;> rfl
/-- The input features are as launched. -/
theorem W1_x (c : Dev nD) : W1 m ρ c (Proc.devRef .tc main_arg0) = (m ((c : Thread nD τ).loc main_arg0)) :=
  by dsimp only [W1, hostOps0]; after_results_simp <;> rfl
/-- Argument 5 is as launched. -/
theorem W1_arg5 (c : Dev nD) : W1 m ρ c (Proc.devRef .tc main_arg5) = (m ((c : Thread nD τ).loc main_arg5)) :=
  by dsimp only [W1, hostOps0]; after_results_simp <;> rfl
/-- Argument 6 is as launched. -/
theorem W1_arg6 (c : Dev nD) : W1 m ρ c (Proc.devRef .tc main_arg6) = (m ((c : Thread nD τ).loc main_arg6)) :=
  by dsimp only [W1, hostOps0]; after_results_simp <;> rfl
/-- Argument 7 is as launched. -/
theorem W1_arg7 (c : Dev nD) : W1 m ρ c (Proc.devRef .tc main_arg7) = (m ((c : Thread nD τ).loc main_arg7)) :=
  by dsimp only [W1, hostOps0]; after_results_simp <;> rfl
/-- Argument 8 is as launched. -/
theorem W1_arg8 (c : Dev nD) : W1 m ρ c (Proc.devRef .tc main_arg8) = (m ((c : Thread nD τ).loc main_arg8)) :=
  by dsimp only [W1, hostOps0]; after_results_simp <;> rfl
/-- Argument 9 is as launched. -/
theorem W1_arg9 (c : Dev nD) : W1 m ρ c (Proc.devRef .tc main_arg9) = (m ((c : Thread nD τ).loc main_arg9)) :=
  by dsimp only [W1, hostOps0]; after_results_simp <;> rfl
/-- Argument 10 is as launched. -/
theorem W1_arg10 (c : Dev nD) : W1 m ρ c (Proc.devRef .tc main_arg10) = (m ((c : Thread nD τ).loc main_arg10)) :=
  by dsimp only [W1, hostOps0]; after_results_simp <;> rfl
/-- Argument 11 is as launched. -/
theorem W1_arg11 (c : Dev nD) : W1 m ρ c (Proc.devRef .tc main_arg11) = (m ((c : Thread nD τ).loc main_arg11)) :=
  by dsimp only [W1, hostOps0]; after_results_simp <;> rfl
/-- Argument 12 is as launched. -/
theorem W1_arg12 (c : Dev nD) : W1 m ρ c (Proc.devRef .tc main_arg12) = (m ((c : Thread nD τ).loc main_arg12)) :=
  by dsimp only [W1, hostOps0]; after_results_simp <;> rfl
/-- Argument 13 is as launched. -/
theorem W1_arg13 (c : Dev nD) : W1 m ρ c (Proc.devRef .tc main_arg13) = (m ((c : Thread nD τ).loc main_arg13)) :=
  by dsimp only [W1, hostOps0]; after_results_simp <;> rfl
/-! ## After region 0 -/
/-- The first hidden layer: region 0's output array. -/
theorem W2_h1 (hR0 : RegionValue0) (c : Dev nD) : W2 m ρ c (Proc.devRef .tc main_v28) = (h1 m c) := by
  refine (W2_arr m ρ c 5).trans ((hR0 (V1 m ρ) c).trans ?_)
  show Cert.Sage.hidden64 (W1 m ρ c (Proc.devRef .tc main_v24)) (W1 m ρ c (Proc.devRef .tc main_arg0)) (W1 m ρ c (Proc.devRef .tc main_v25)) (W1 m ρ c (Proc.devRef .tc main_v27)) (W1 m ρ c (Proc.devRef .tc main_v26)) = _
  rw [W1_mean, W1_x, W1_wl, W1_b, W1_wr]; rfl
/-- Kept by the region: src. -/
theorem W2_src (c : Dev nD) : W2 m ρ c (Proc.devRef .tc main_v1) = (K.src (m ((c : Thread nD τ).loc main_arg1))) :=
  (W2_of_ne m ρ c main_v1 (by decide)).trans (W1_src m ρ c)
/-- Kept by the region: dst. -/
theorem W2_dst (c : Dev nD) : W2 m ρ c (Proc.devRef .tc main_v3) = (K.dst (m ((c : Thread nD τ).loc main_arg1))) :=
  (W2_of_ne m ρ c main_v3 (by decide)).trans (W1_dst m ρ c)
/-- Kept by the region: recip. -/
theorem W2_recip (c : Dev nD) : W2 m ρ c (Proc.devRef .tc main_v12) = (K.recipDeg (K.dst (m ((c : Thread nD τ).loc main_arg1)))) :=
  (W2_of_ne m ρ c main_v12 (by decide)).trans (W1_recip m ρ c)
/-- Argument 5 is kept by the region. -/
theorem W2_arg5 (c : Dev nD) : W2 m ρ c (Proc.devRef .tc main_arg5) = (m ((c : Thread nD τ).loc main_arg5)) :=
  (W2_of_ne m ρ c main_arg5 (by decide)).trans (W1_arg5 m ρ c)
/-- Argument 6 is kept by the region. -/
theorem W2_arg6 (c : Dev nD) : W2 m ρ c (Proc.devRef .tc main_arg6) = (m ((c : Thread nD τ).loc main_arg6)) :=
  (W2_of_ne m ρ c main_arg6 (by decide)).trans (W1_arg6 m ρ c)
/-- Argument 7 is kept by the region. -/
theorem W2_arg7 (c : Dev nD) : W2 m ρ c (Proc.devRef .tc main_arg7) = (m ((c : Thread nD τ).loc main_arg7)) :=
  (W2_of_ne m ρ c main_arg7 (by decide)).trans (W1_arg7 m ρ c)
/-- Argument 8 is kept by the region. -/
theorem W2_arg8 (c : Dev nD) : W2 m ρ c (Proc.devRef .tc main_arg8) = (m ((c : Thread nD τ).loc main_arg8)) :=
  (W2_of_ne m ρ c main_arg8 (by decide)).trans (W1_arg8 m ρ c)
/-- Argument 9 is kept by the region. -/
theorem W2_arg9 (c : Dev nD) : W2 m ρ c (Proc.devRef .tc main_arg9) = (m ((c : Thread nD τ).loc main_arg9)) :=
  (W2_of_ne m ρ c main_arg9 (by decide)).trans (W1_arg9 m ρ c)
/-- Argument 10 is kept by the region. -/
theorem W2_arg10 (c : Dev nD) : W2 m ρ c (Proc.devRef .tc main_arg10) = (m ((c : Thread nD τ).loc main_arg10)) :=
  (W2_of_ne m ρ c main_arg10 (by decide)).trans (W1_arg10 m ρ c)
/-- Argument 11 is kept by the region. -/
theorem W2_arg11 (c : Dev nD) : W2 m ρ c (Proc.devRef .tc main_arg11) = (m ((c : Thread nD τ).loc main_arg11)) :=
  (W2_of_ne m ρ c main_arg11 (by decide)).trans (W1_arg11 m ρ c)
/-- Argument 12 is kept by the region. -/
theorem W2_arg12 (c : Dev nD) : W2 m ρ c (Proc.devRef .tc main_arg12) = (m ((c : Thread nD τ).loc main_arg12)) :=
  (W2_of_ne m ρ c main_arg12 (by decide)).trans (W1_arg12 m ρ c)
/-- Argument 13 is kept by the region. -/
theorem W2_arg13 (c : Dev nD) : W2 m ρ c (Proc.devRef .tc main_arg13) = (m ((c : Thread nD τ).loc main_arg13)) :=
  (W2_of_ne m ρ c main_arg13 (by decide)).trans (W1_arg13 m ρ c)
/-! ## After the second host stretch (entry of region 1) -/
/-- Kept by the host stretch: src. -/
theorem W3_src (c : Dev nD) : W3 m ρ c (Proc.devRef .tc main_v1) = (K.src (m ((c : Thread nD τ).loc main_arg1))) :=
  (show W3 m ρ c (Proc.devRef .tc main_v1) = W2 m ρ c (Proc.devRef .tc main_v1) by dsimp only [W3, hostOps1]; after_results_simp <;> rfl).trans (W2_src m ρ c)
/-- Kept by the host stretch: dst. -/
theorem W3_dst (c : Dev nD) : W3 m ρ c (Proc.devRef .tc main_v3) = (K.dst (m ((c : Thread nD τ).loc main_arg1))) :=
  (show W3 m ρ c (Proc.devRef .tc main_v3) = W2 m ρ c (Proc.devRef .tc main_v3) by dsimp only [W3, hostOps1]; after_results_simp <;> rfl).trans (W2_dst m ρ c)
/-- Kept by the host stretch: recip. -/
theorem W3_recip (c : Dev nD) : W3 m ρ c (Proc.devRef .tc main_v12) = (K.recipDeg (K.dst (m ((c : Thread nD τ).loc main_arg1)))) :=
  (show W3 m ρ c (Proc.devRef .tc main_v12) = W2 m ρ c (Proc.devRef .tc main_v12) by dsimp only [W3, hostOps1]; after_results_simp <;> rfl).trans (W2_recip m ρ c)
/-- Argument 8 is kept by the host stretch. -/
theorem W3_arg8 (c : Dev nD) : W3 m ρ c (Proc.devRef .tc main_arg8) = (m ((c : Thread nD τ).loc main_arg8)) :=
  (show W3 m ρ c (Proc.devRef .tc main_arg8) = W2 m ρ c (Proc.devRef .tc main_arg8) by dsimp only [W3, hostOps1]; after_results_simp <;> rfl).trans (W2_arg8 m ρ c)
/-- Argument 9 is kept by the host stretch. -/
theorem W3_arg9 (c : Dev nD) : W3 m ρ c (Proc.devRef .tc main_arg9) = (m ((c : Thread nD τ).loc main_arg9)) :=
  (show W3 m ρ c (Proc.devRef .tc main_arg9) = W2 m ρ c (Proc.devRef .tc main_arg9) by dsimp only [W3, hostOps1]; after_results_simp <;> rfl).trans (W2_arg9 m ρ c)
/-- Argument 10 is kept by the host stretch. -/
theorem W3_arg10 (c : Dev nD) : W3 m ρ c (Proc.devRef .tc main_arg10) = (m ((c : Thread nD τ).loc main_arg10)) :=
  (show W3 m ρ c (Proc.devRef .tc main_arg10) = W2 m ρ c (Proc.devRef .tc main_arg10) by dsimp only [W3, hostOps1]; after_results_simp <;> rfl).trans (W2_arg10 m ρ c)
/-- Argument 11 is kept by the host stretch. -/
theorem W3_arg11 (c : Dev nD) : W3 m ρ c (Proc.devRef .tc main_arg11) = (m ((c : Thread nD τ).loc main_arg11)) :=
  (show W3 m ρ c (Proc.devRef .tc main_arg11) = W2 m ρ c (Proc.devRef .tc main_arg11) by dsimp only [W3, hostOps1]; after_results_simp <;> rfl).trans (W2_arg11 m ρ c)
/-- Argument 12 is kept by the host stretch. -/
theorem W3_arg12 (c : Dev nD) : W3 m ρ c (Proc.devRef .tc main_arg12) = (m ((c : Thread nD τ).loc main_arg12)) :=
  (show W3 m ρ c (Proc.devRef .tc main_arg12) = W2 m ρ c (Proc.devRef .tc main_arg12) by dsimp only [W3, hostOps1]; after_results_simp <;> rfl).trans (W2_arg12 m ρ c)
/-- Argument 13 is kept by the host stretch. -/
theorem W3_arg13 (c : Dev nD) : W3 m ρ c (Proc.devRef .tc main_arg13) = (m ((c : Thread nD τ).loc main_arg13)) :=
  (show W3 m ρ c (Proc.devRef .tc main_arg13) = W2 m ρ c (Proc.devRef .tc main_arg13) by dsimp only [W3, hostOps1]; after_results_simp <;> rfl).trans (W2_arg13 m ρ c)
/-- The first hidden layer is kept by the host stretch. -/
theorem W3_x (hR0 : RegionValue0) (c : Dev nD) : W3 m ρ c (Proc.devRef .tc main_v28) = (h1 m c) :=
  (show W3 m ρ c (Proc.devRef .tc main_v28) = W2 m ρ c (Proc.devRef .tc main_v28) by dsimp only [W3, hostOps1]; after_results_simp <;> rfl).trans (W2_h1 m ρ hR0 c)
/-- The mean of the first hidden layer over the in-neighbours. -/
theorem W3_mean (hR0 : RegionValue0) (c : Dev nD) : W3 m ρ c (Proc.devRef .tc main_v40) = Net.mean (m ((c : Thread nD τ).loc main_arg1)) (h1 m c) := by
  refine (show W3 m ρ c (Proc.devRef .tc main_v40) = K.nbrMean (W2 m ρ c (Proc.devRef .tc main_v1)) (W2 m ρ c (Proc.devRef .tc main_v3)) (W2 m ρ c (Proc.devRef .tc main_v12)) (W2 m ρ c (Proc.devRef .tc main_v28)) by dsimp only [W3, hostOps1]; after_results_simp <;> rfl).trans ?_
  rw [W2_src, W2_dst, W2_recip, W2_h1 m ρ hR0]; rfl
/-- The second layer's left weights, transposed. -/
theorem W3_wl (c : Dev nD) : W3 m ρ c (Proc.devRef .tc main_v41) = (transpose S64x64 [1, 0] (m ((c : Thread nD τ).loc main_arg5)) Facts₀.transposes_S64x64_S64x64_1_0) :=
  (show W3 m ρ c (Proc.devRef .tc main_v41) = (transpose S64x64 [1, 0] (W2 m ρ c (Proc.devRef .tc main_arg5)) Facts₀.transposes_S64x64_S64x64_1_0) by dsimp only [W3, hostOps1]; after_results_simp <;> rfl).trans (by rw [W2_arg5])
/-- The second layer's right weights, transposed. -/
theorem W3_wr (c : Dev nD) : W3 m ρ c (Proc.devRef .tc main_v42) = (transpose S64x64 [1, 0] (m ((c : Thread nD τ).loc main_arg7)) Facts₀.transposes_S64x64_S64x64_1_0) :=
  (show W3 m ρ c (Proc.devRef .tc main_v42) = (transpose S64x64 [1, 0] (W2 m ρ c (Proc.devRef .tc main_arg7)) Facts₀.transposes_S64x64_S64x64_1_0) by dsimp only [W3, hostOps1]; after_results_simp <;> rfl).trans (by rw [W2_arg7])
/-- The second layer's bias as a row. -/
theorem W3_b (c : Dev nD) : W3 m ρ c (Proc.devRef .tc main_v43) = (shapeCast _ (m ((c : Thread nD τ).loc main_arg6)) Facts₀.shapeCasts_S64_S1x64) :=
  (show W3 m ρ c (Proc.devRef .tc main_v43) = (shapeCast _ (W2 m ρ c (Proc.devRef .tc main_arg6)) Facts₀.shapeCasts_S64_S1x64) by dsimp only [W3, hostOps1]; after_results_simp <;> rfl).trans (by rw [W2_arg6])
/-! ## After region 1 -/
/-- The second hidden layer: region 1's output array. -/
theorem W4_h2 (hR0 : RegionValue0) (hR1 : RegionValue1) (c : Dev nD) : W4 m ρ c (Proc.devRef .tc main_v44) = (h2 m c) := by
  refine (W4_arr m ρ c 5).trans ((hR1 (V3 m ρ) c).trans ?_)
  show Cert.Sage.hidden64 (W3 m ρ c (Proc.devRef .tc main_v40)) (W3 m ρ c (Proc.devRef .tc main_v28)) (W3 m ρ c (Proc.devRef .tc main_v41)) (W3 m ρ c (Proc.devRef .tc main_v43)) (W3 m ρ c (Proc.devRef .tc main_v42)) = _
  rw [W3_mean m ρ hR0, W3_x m ρ hR0, W3_wl, W3_b, W3_wr]; rfl
/-- Kept by the region: src. -/
theorem W4_src (c : Dev nD) : W4 m ρ c (Proc.devRef .tc main_v1) = (K.src (m ((c : Thread nD τ).loc main_arg1))) :=
  (W4_of_ne m ρ c main_v1 (by decide)).trans (W3_src m ρ c)
/-- Kept by the region: dst. -/
theorem W4_dst (c : Dev nD) : W4 m ρ c (Proc.devRef .tc main_v3) = (K.dst (m ((c : Thread nD τ).loc main_arg1))) :=
  (W4_of_ne m ρ c main_v3 (by decide)).trans (W3_dst m ρ c)
/-- Kept by the region: recip. -/
theorem W4_recip (c : Dev nD) : W4 m ρ c (Proc.devRef .tc main_v12) = (K.recipDeg (K.dst (m ((c : Thread nD τ).loc main_arg1)))) :=
  (W4_of_ne m ρ c main_v12 (by decide)).trans (W3_recip m ρ c)
/-- Argument 8 is kept by the region. -/
theorem W4_arg8 (c : Dev nD) : W4 m ρ c (Proc.devRef .tc main_arg8) = (m ((c : Thread nD τ).loc main_arg8)) :=
  (W4_of_ne m ρ c main_arg8 (by decide)).trans (W3_arg8 m ρ c)
/-- Argument 9 is kept by the region. -/
theorem W4_arg9 (c : Dev nD) : W4 m ρ c (Proc.devRef .tc main_arg9) = (m ((c : Thread nD τ).loc main_arg9)) :=
  (W4_of_ne m ρ c main_arg9 (by decide)).trans (W3_arg9 m ρ c)
/-- Argument 10 is kept by the region. -/
theorem W4_arg10 (c : Dev nD) : W4 m ρ c (Proc.devRef .tc main_arg10) = (m ((c : Thread nD τ).loc main_arg10)) :=
  (W4_of_ne m ρ c main_arg10 (by decide)).trans (W3_arg10 m ρ c)
/-- Argument 11 is kept by the region. -/
theorem W4_arg11 (c : Dev nD) : W4 m ρ c (Proc.devRef .tc main_arg11) = (m ((c : Thread nD τ).loc main_arg11)) :=
  (W4_of_ne m ρ c main_arg11 (by decide)).trans (W3_arg11 m ρ c)
/-- Argument 12 is kept by the region. -/
theorem W4_arg12 (c : Dev nD) : W4 m ρ c (Proc.devRef .tc main_arg12) = (m ((c : Thread nD τ).loc main_arg12)) :=
  (W4_of_ne m ρ c main_arg12 (by decide)).trans (W3_arg12 m ρ c)
/-- Argument 13 is kept by the region. -/
theorem W4_arg13 (c : Dev nD) : W4 m ρ c (Proc.devRef .tc main_arg13) = (m ((c : Thread nD τ).loc main_arg13)) :=
  (W4_of_ne m ρ c main_arg13 (by decide)).trans (W3_arg13 m ρ c)
/-! ## After the third host stretch (entry of region 2) -/
/-- Kept by the host stretch: src. -/
theorem W5_src (c : Dev nD) : W5 m ρ c (Proc.devRef .tc main_v1) = (K.src (m ((c : Thread nD τ).loc main_arg1))) :=
  (show W5 m ρ c (Proc.devRef .tc main_v1) = W4 m ρ c (Proc.devRef .tc main_v1) by dsimp only [W5, hostOps2]; after_results_simp <;> rfl).trans (W4_src m ρ c)
/-- Kept by the host stretch: dst. -/
theorem W5_dst (c : Dev nD) : W5 m ρ c (Proc.devRef .tc main_v3) = (K.dst (m ((c : Thread nD τ).loc main_arg1))) :=
  (show W5 m ρ c (Proc.devRef .tc main_v3) = W4 m ρ c (Proc.devRef .tc main_v3) by dsimp only [W5, hostOps2]; after_results_simp <;> rfl).trans (W4_dst m ρ c)
/-- Kept by the host stretch: recip. -/
theorem W5_recip (c : Dev nD) : W5 m ρ c (Proc.devRef .tc main_v12) = (K.recipDeg (K.dst (m ((c : Thread nD τ).loc main_arg1)))) :=
  (show W5 m ρ c (Proc.devRef .tc main_v12) = W4 m ρ c (Proc.devRef .tc main_v12) by dsimp only [W5, hostOps2]; after_results_simp <;> rfl).trans (W4_recip m ρ c)
/-- Argument 11 is kept by the host stretch. -/
theorem W5_arg11 (c : Dev nD) : W5 m ρ c (Proc.devRef .tc main_arg11) = (m ((c : Thread nD τ).loc main_arg11)) :=
  (show W5 m ρ c (Proc.devRef .tc main_arg11) = W4 m ρ c (Proc.devRef .tc main_arg11) by dsimp only [W5, hostOps2]; after_results_simp <;> rfl).trans (W4_arg11 m ρ c)
/-- Argument 12 is kept by the host stretch. -/
theorem W5_arg12 (c : Dev nD) : W5 m ρ c (Proc.devRef .tc main_arg12) = (m ((c : Thread nD τ).loc main_arg12)) :=
  (show W5 m ρ c (Proc.devRef .tc main_arg12) = W4 m ρ c (Proc.devRef .tc main_arg12) by dsimp only [W5, hostOps2]; after_results_simp <;> rfl).trans (W4_arg12 m ρ c)
/-- Argument 13 is kept by the host stretch. -/
theorem W5_arg13 (c : Dev nD) : W5 m ρ c (Proc.devRef .tc main_arg13) = (m ((c : Thread nD τ).loc main_arg13)) :=
  (show W5 m ρ c (Proc.devRef .tc main_arg13) = W4 m ρ c (Proc.devRef .tc main_arg13) by dsimp only [W5, hostOps2]; after_results_simp <;> rfl).trans (W4_arg13 m ρ c)
/-- The second hidden layer is kept by the host stretch. -/
theorem W5_x (hR0 : RegionValue0) (hR1 : RegionValue1) (c : Dev nD) : W5 m ρ c (Proc.devRef .tc main_v44) = (h2 m c) :=
  (show W5 m ρ c (Proc.devRef .tc main_v44) = W4 m ρ c (Proc.devRef .tc main_v44) by dsimp only [W5, hostOps2]; after_results_simp <;> rfl).trans (W4_h2 m ρ hR0 hR1 c)
/-- The mean of the second hidden layer over the in-neighbours. -/
theorem W5_mean (hR0 : RegionValue0) (hR1 : RegionValue1) (c : Dev nD) : W5 m ρ c (Proc.devRef .tc main_v56) = Net.mean (m ((c : Thread nD τ).loc main_arg1)) (h2 m c) := by
  refine (show W5 m ρ c (Proc.devRef .tc main_v56) = K.nbrMean (W4 m ρ c (Proc.devRef .tc main_v1)) (W4 m ρ c (Proc.devRef .tc main_v3)) (W4 m ρ c (Proc.devRef .tc main_v12)) (W4 m ρ c (Proc.devRef .tc main_v44)) by dsimp only [W5, hostOps2]; after_results_simp <;> rfl).trans ?_
  rw [W4_src, W4_dst, W4_recip, W4_h2 m ρ hR0 hR1]; rfl
/-- The mean head's left weights, transposed. -/
theorem W5_wl (c : Dev nD) : W5 m ρ c (Proc.devRef .tc main_v57) = (transpose S64x32 [1, 0] (m ((c : Thread nD τ).loc main_arg8)) Facts₀.transposes_S32x64_S64x32_1_0) :=
  (show W5 m ρ c (Proc.devRef .tc main_v57) = (transpose S64x32 [1, 0] (W4 m ρ c (Proc.devRef .tc main_arg8)) Facts₀.transposes_S32x64_S64x32_1_0) by dsimp only [W5, hostOps2]; after_results_simp <;> rfl).trans (by rw [W4_arg8])
/-- The mean head's right weights, transposed. -/
theorem W5_wr (c : Dev nD) : W5 m ρ c (Proc.devRef .tc main_v58) = (transpose S64x32 [1, 0] (m ((c : Thread nD τ).loc main_arg10)) Facts₀.transposes_S32x64_S64x32_1_0) :=
  (show W5 m ρ c (Proc.devRef .tc main_v58) = (transpose S64x32 [1, 0] (W4 m ρ c (Proc.devRef .tc main_arg10)) Facts₀.transposes_S32x64_S64x32_1_0) by dsimp only [W5, hostOps2]; after_results_simp <;> rfl).trans (by rw [W4_arg10])
/-- The mean head's bias as a row. -/
theorem W5_b (c : Dev nD) : W5 m ρ c (Proc.devRef .tc main_v59) = (shapeCast _ (m ((c : Thread nD τ).loc main_arg9)) Facts₀.shapeCasts_S32_S1x32) :=
  (show W5 m ρ c (Proc.devRef .tc main_v59) = (shapeCast _ (W4 m ρ c (Proc.devRef .tc main_arg9)) Facts₀.shapeCasts_S32_S1x32) by dsimp only [W5, hostOps2]; after_results_simp <;> rfl).trans (by rw [W4_arg9])
/-! ## After region 2 -/
/-- The mean head: region 2's output array. -/
theorem W6_mu (hR0 : RegionValue0) (hR1 : RegionValue1) (hR2 : RegionValue2) (c : Dev nD) :
    W6 m ρ c (Proc.devRef .tc main_v60) = Net.head (m ((c : Thread nD τ).loc main_arg1)) (h2 m c) (m ((c : Thread nD τ).loc main_arg8)) (m ((c : Thread nD τ).loc main_arg9)) (m ((c : Thread nD τ).loc main_arg10)) := by
  refine (W6_arr m ρ c 5).trans ((hR2 (V5 m ρ) c).trans ?_)
  show Cert.Sage.head32 (W5 m ρ c (Proc.devRef .tc main_v56)) (W5 m ρ c (Proc.devRef .tc main_v44)) (W5 m ρ c (Proc.devRef .tc main_v57)) (W5 m ρ c (Proc.devRef .tc main_v59)) (W5 m ρ c (Proc.devRef .tc main_v58)) = _
  rw [W5_mean m ρ hR0 hR1, W5_x m ρ hR0 hR1, W5_wl, W5_b, W5_wr]; rfl
/-- The second hidden layer is an input array of region 2, which leaves it as entered. -/
theorem W6_x (hR0 : RegionValue0) (hR1 : RegionValue1) (c : Dev nD) : W6 m ρ c (Proc.devRef .tc main_v44) = (h2 m c) :=
  ((W6_arr m ρ c 1).trans (((dat2 (V5 m ρ) c).arrAt_in 1 rfl _).trans (A_eq2 (V5 m ρ) c 1))).trans (W5_x m ρ hR0 hR1 c)
/-- Kept by the region: src. -/
theorem W6_src (c : Dev nD) : W6 m ρ c (Proc.devRef .tc main_v1) = (K.src (m ((c : Thread nD τ).loc main_arg1))) :=
  (W6_of_ne m ρ c main_v1 (by decide)).trans (W5_src m ρ c)
/-- Kept by the region: dst. -/
theorem W6_dst (c : Dev nD) : W6 m ρ c (Proc.devRef .tc main_v3) = (K.dst (m ((c : Thread nD τ).loc main_arg1))) :=
  (W6_of_ne m ρ c main_v3 (by decide)).trans (W5_dst m ρ c)
/-- Kept by the region: recip. -/
theorem W6_recip (c : Dev nD) : W6 m ρ c (Proc.devRef .tc main_v12) = (K.recipDeg (K.dst (m ((c : Thread nD τ).loc main_arg1)))) :=
  (W6_of_ne m ρ c main_v12 (by decide)).trans (W5_recip m ρ c)
/-- Argument 11 is kept by the region. -/
theorem W6_arg11 (c : Dev nD) : W6 m ρ c (Proc.devRef .tc main_arg11) = (m ((c : Thread nD τ).loc main_arg11)) :=
  (W6_of_ne m ρ c main_arg11 (by decide)).trans (W5_arg11 m ρ c)
/-- Argument 12 is kept by the region. -/
theorem W6_arg12 (c : Dev nD) : W6 m ρ c (Proc.devRef .tc main_arg12) = (m ((c : Thread nD τ).loc main_arg12)) :=
  (W6_of_ne m ρ c main_arg12 (by decide)).trans (W5_arg12 m ρ c)
/-- Argument 13 is kept by the region. -/
theorem W6_arg13 (c : Dev nD) : W6 m ρ c (Proc.devRef .tc main_arg13) = (m ((c : Thread nD τ).loc main_arg13)) :=
  (W6_of_ne m ρ c main_arg13 (by decide)).trans (W5_arg13 m ρ c)
/-! ## After the fourth host stretch (entry of region 3) -/
/-- The second hidden layer is kept by the host stretch. -/
theorem W7_x (hR0 : RegionValue0) (hR1 : RegionValue1) (c : Dev nD) : W7 m ρ c (Proc.devRef .tc main_v44) = (h2 m c) :=
  (show W7 m ρ c (Proc.devRef .tc main_v44) = W6 m ρ c (Proc.devRef .tc main_v44) by dsimp only [W7, hostOps3]; after_results_simp <;> rfl).trans (W6_x m ρ hR0 hR1 c)
/-- The mean head is kept by the host stretch. -/
theorem W7_mu (hR0 : RegionValue0) (hR1 : RegionValue1) (hR2 : RegionValue2) (c : Dev nD) : W7 m ρ c (Proc.devRef .tc main_v60) = Net.head (m ((c : Thread nD τ).loc main_arg1)) (h2 m c) (m ((c : Thread nD τ).loc main_arg8)) (m ((c : Thread nD τ).loc main_arg9)) (m ((c : Thread nD τ).loc main_arg10)) :=
  (show W7 m ρ c (Proc.devRef .tc main_v60) = W6 m ρ c (Proc.devRef .tc main_v60) by dsimp only [W7, hostOps3]; after_results_simp <;> rfl).trans (W6_mu m ρ hR0 hR1 hR2 c)
/-- The mean of the second hidden layer over the in-neighbours, computed again for the second head. -/
theorem W7_mean (hR0 : RegionValue0) (hR1 : RegionValue1) (c : Dev nD) : W7 m ρ c (Proc.devRef .tc main_v72) = Net.mean (m ((c : Thread nD τ).loc main_arg1)) (h2 m c) := by
  refine (show W7 m ρ c (Proc.devRef .tc main_v72) = K.nbrMean (W6 m ρ c (Proc.devRef .tc main_v1)) (W6 m ρ c (Proc.devRef .tc main_v3)) (W6 m ρ c (Proc.devRef .tc main_v12)) (W6 m ρ c (Proc.devRef .tc main_v44)) by dsimp only [W7, hostOps3]; after_results_simp <;> rfl).trans ?_
  rw [W6_src, W6_dst, W6_recip, W6_x m ρ hR0 hR1]; rfl
/-- The deviation head's left weights, transposed. -/
theorem W7_wl (c : Dev nD) : W7 m ρ c (Proc.devRef .tc main_v73) = (transpose S64x32 [1, 0] (m ((c : Thread nD τ).loc main_arg11)) Facts₀.transposes_S32x64_S64x32_1_0) :=
  (show W7 m ρ c (Proc.devRef .tc main_v73) = (transpose S64x32 [1, 0] (W6 m ρ c (Proc.devRef .tc main_arg11)) Facts₀.transposes_S32x64_S64x32_1_0) by dsimp only [W7, hostOps3]; after_results_simp <;> rfl).trans (by rw [W6_arg11])
/-- The deviation head's right weights, transposed. -/
theorem W7_wr (c : Dev nD) : W7 m ρ c (Proc.devRef .tc main_v74) = (transpose S64x32 [1, 0] (m ((c : Thread nD τ).loc main_arg13)) Facts₀.transposes_S32x64_S64x32_1_0) :=
  (show W7 m ρ c (Proc.devRef .tc main_v74) = (transpose S64x32 [1, 0] (W6 m ρ c (Proc.devRef .tc main_arg13)) Facts₀.transposes_S32x64_S64x32_1_0) by dsimp only [W7, hostOps3]; after_results_simp <;> rfl).trans (by rw [W6_arg13])
/-- The deviation head's bias as a row. -/
theorem W7_b (c : Dev nD) : W7 m ρ c (Proc.devRef .tc main_v75) = (shapeCast _ (m ((c : Thread nD τ).loc main_arg12)) Facts₀.shapeCasts_S32_S1x32) :=
  (show W7 m ρ c (Proc.devRef .tc main_v75) = (shapeCast _ (W6 m ρ c (Proc.devRef .tc main_arg12)) Facts₀.shapeCasts_S32_S1x32) by dsimp only [W7, hostOps3]; after_results_simp <;> rfl).trans (by rw [W6_arg12])
/-! ## After region 3: the two results -/
/-- The deviation head: region 3's output array. -/
theorem W8_logstd (hR0 : RegionValue0) (hR1 : RegionValue1) (hR3 : RegionValue3) (c : Dev nD) :
    W8 m ρ c (Proc.devRef .tc main_v76) = Net.head (m ((c : Thread nD τ).loc main_arg1)) (h2 m c) (m ((c : Thread nD τ).loc main_arg11)) (m ((c : Thread nD τ).loc main_arg12)) (m ((c : Thread nD τ).loc main_arg13)) := by
  refine (W8_arr m ρ c 5).trans ((hR3 (V7 m ρ) c).trans ?_)
  show Cert.Sage.head32 (W7 m ρ c (Proc.devRef .tc main_v72)) (W7 m ρ c (Proc.devRef .tc main_v44)) (W7 m ρ c (Proc.devRef .tc main_v73)) (W7 m ρ c (Proc.devRef .tc main_v75)) (W7 m ρ c (Proc.devRef .tc main_v74)) = _
  rw [W7_mean m ρ hR0 hR1, W7_x m ρ hR0 hR1, W7_wl, W7_b, W7_wr]; rfl
/-- The mean head is not an array of region 3. -/
theorem W8_mu (hR0 : RegionValue0) (hR1 : RegionValue1) (hR2 : RegionValue2) (c : Dev nD) : W8 m ρ c (Proc.devRef .tc main_v60) = Net.head (m ((c : Thread nD τ).loc main_arg1)) (h2 m c) (m ((c : Thread nD τ).loc main_arg8)) (m ((c : Thread nD τ).loc main_arg9)) (m ((c : Thread nD τ).loc main_arg10)) :=
  (W8_of_ne m ρ c main_v60 (by decide)).trans (W7_mu m ρ hR0 hR1 hR2 c)

end Cert.Sage.Fold

end
-- ==== Proof.BlockMatmul.lean ====
/-
  The body of one dense step, read at an index of its 5000-row block, on the extended reals.

  Each of the four regions computes, from a 5000 × 64 block of the neighbourhood means, the same block of the node
  features, two 64 × d weight matrices and a 1 × d bias row, the block of the layer's result: at (p, q)

      (Σₖ mean(p,k) · wl(k,q)  +  Σₖ x(p,k) · wr(k,q))  +  b(0,q),

  through the rectifier when d = 64.  The products are matrix products into a zero accumulator, read at an index
  as the sum over the one contracted coordinate; the bias is a row broadcast over the rows.
-/
import proofs.«138562_j36447092474375_1_alg».proof.Proof.Gen.KernelIdeal.Skeleton
import proofs.«138562_j36447092474375_1_alg».proof.Proof.Layer
import Idealize.ShloMosaic.PureOps.Ideal.Laws
import Idealize.ShloMosaic.Lib.ValueIdx
import Idealize.ShloMosaic.Lib.Pipeline.Value

noncomputable section

namespace Cert.Sage.Block

open Idealize.ShloMosaic Idealize.ShloMosaic.ValueIdx Cert.KernelIdeal Cert.KernelIdeal.Gen

theorem lhs64_0 (i : S5000x64.Idx) (r : dot_S5000x64_S64x64_S5000x64_1_0_0_1_n_n.contr.Idx) : (dot_S5000x64_S64x64_S5000x64_1_0_0_1_n_n.lhsIdx i r 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs64_1 (i : S5000x64.Idx) (r : dot_S5000x64_S64x64_S5000x64_1_0_0_1_n_n.contr.Idx) : (dot_S5000x64_S64x64_S5000x64_1_0_0_1_n_n.lhsIdx i r 1).val = (r ⟨0, by decide⟩).val :=
  dot_S5000x64_S64x64_S5000x64_1_0_0_1_n_n.lhsIdx_val_of_single rfl i r
theorem rhs64_0 (i : S5000x64.Idx) (r : dot_S5000x64_S64x64_S5000x64_1_0_0_1_n_n.contr.Idx) : (dot_S5000x64_S64x64_S5000x64_1_0_0_1_n_n.rhsIdx i r 0).val = (r ⟨0, by decide⟩).val :=
  dot_S5000x64_S64x64_S5000x64_1_0_0_1_n_n.rhsIdx_val_of_single rfl i r
theorem rhs64_1 (i : S5000x64.Idx) (r : dot_S5000x64_S64x64_S5000x64_1_0_0_1_n_n.contr.Idx) : (dot_S5000x64_S64x64_S5000x64_1_0_0_1_n_n.rhsIdx i r 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a 64 × 64 matrix, accumulated into zero, read at (p, q): the sum over the 64 shared
    coordinates of the products. -/
theorem matmul64_apply (A : FVec Ideal S5000x64 .bf16) (B : FVec Ideal S64x64 .bf16) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs64_0 _ _
    | ⟨1, _⟩ => exact (lhs64_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs64_0 _ _).trans hk
    | ⟨1, _⟩ => exact rhs64_1 _ _)
  rw [el, er]

/-- The 1 × 64 bias row broadcast over the 5000 rows reads, at (p, q), the row's entry q. -/
theorem bias64_apply (b : FVec Ideal S1x64 .f32) (p : Fin 5000) (q : Fin 64) :
    broadcastTo S5000x64 b broadcasts_S1x64_S5000x64 (ix2 p q) = b (ix2 (0 : Fin 1) q) :=
  broadcastTo_apply b broadcasts_S1x64_S5000x64 (ix2 p q) (ix2 (0 : Fin 1) q) (fun a => match a with
    | ⟨0, _⟩ => rfl
    | ⟨1, _⟩ => rfl)

theorem lhs32_0 (i : S5000x32.Idx) (r : dot_S5000x64_S64x32_S5000x32_1_0_0_1_n_n.contr.Idx) : (dot_S5000x64_S64x32_S5000x32_1_0_0_1_n_n.lhsIdx i r 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs32_1 (i : S5000x32.Idx) (r : dot_S5000x64_S64x32_S5000x32_1_0_0_1_n_n.contr.Idx) : (dot_S5000x64_S64x32_S5000x32_1_0_0_1_n_n.lhsIdx i r 1).val = (r ⟨0, by decide⟩).val :=
  dot_S5000x64_S64x32_S5000x32_1_0_0_1_n_n.lhsIdx_val_of_single rfl i r
theorem rhs32_0 (i : S5000x32.Idx) (r : dot_S5000x64_S64x32_S5000x32_1_0_0_1_n_n.contr.Idx) : (dot_S5000x64_S64x32_S5000x32_1_0_0_1_n_n.rhsIdx i r 0).val = (r ⟨0, by decide⟩).val :=
  dot_S5000x64_S64x32_S5000x32_1_0_0_1_n_n.rhsIdx_val_of_single rfl i r
theorem rhs32_1 (i : S5000x32.Idx) (r : dot_S5000x64_S64x32_S5000x32_1_0_0_1_n_n.contr.Idx) : (dot_S5000x64_S64x32_S5000x32_1_0_0_1_n_n.rhsIdx i r 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A 5000 × 64 block times a 64 × 32 matrix, accumulated into zero, read at (p, q): the sum over the 64 shared
    coordinates of the products. -/
theorem matmul32_apply (A : FVec Ideal S5000x64 .bf16) (B : FVec Ideal S64x32 .bf16) (p : Fin 5000) (q : Fin 32) :
    matmul dot_S5000x64_S64x32_S5000x32_1_0_0_1_n_n none A B (constant (F := Ideal) S5000x32 .f32 0x00000000#32) (ix2 p q)
      = ∑ k : Fin 64, A (ix2 p k) * B (ix2 k q) := by
  simp only [matmul]
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhs32_0 _ _
    | ⟨1, _⟩ => exact (lhs32_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhs32_0 _ _).trans hk
    | ⟨1, _⟩ => exact rhs32_1 _ _)
  rw [el, er]

/-- The 1 × 32 bias row broadcast over the 5000 rows reads, at (p, q), the row's entry q. -/
theorem bias32_apply (b : FVec Ideal S1x32 .f32) (p : Fin 5000) (q : Fin 32) :
    broadcastTo S5000x32 b broadcasts_S1x32_S5000x32 (ix2 p q) = b (ix2 (0 : Fin 1) q) :=
  broadcastTo_apply b broadcasts_S1x32_S5000x32 (ix2 p q) (ix2 (0 : Fin 1) q) (fun a => match a with
    | ⟨0, _⟩ => rfl
    | ⟨1, _⟩ => rfl)

/-- The body of region 0 at (p, q), as the layer's expression of its five loaded blocks: the two products' sums,
    the bias, the rectifier (rounding to bf16 and a cast to the same shape are the identity on the extended reals). -/
theorem k0_pay1_apply (x0 x1 : FVec Ideal S5000x64 .f32) (wl wr : FVec Ideal S64x64 .f32) (b : FVec Ideal S1x64 .f32)
    (p : Fin 5000) (q : Fin 64) :
    k0_pay1 (F := Ideal) x0 x1 wl wr b (ix2 p q)
      = max (((∑ k : Fin 64, x0 (ix2 p k) * wl (ix2 k q)) + (∑ k : Fin 64, x1 (ix2 p k) * wr (ix2 k q)))
          + b (ix2 (0 : Fin 1) q)) (Ideal.ofBits .f32 0x00000000#32) := by
  unfold k0_pay1
  simp only [shapeCast_self]
  rw [maximumf_apply, broadcast_apply]
  rw [addf_apply, addf_apply, matmul64_apply, matmul64_apply, bias64_apply]
  rfl

/-- The body of region 1 at (p, q), as the layer's expression of its five loaded blocks: the two products' sums,
    the bias, the rectifier (rounding to bf16 and a cast to the same shape are the identity on the extended reals). -/
theorem k1_pay1_apply (x0 x1 : FVec Ideal S5000x64 .f32) (wl wr : FVec Ideal S64x64 .f32) (b : FVec Ideal S1x64 .f32)
    (p : Fin 5000) (q : Fin 64) :
    k1_pay1 (F := Ideal) x0 x1 wl wr b (ix2 p q)
      = max (((∑ k : Fin 64, x0 (ix2 p k) * wl (ix2 k q)) + (∑ k : Fin 64, x1 (ix2 p k) * wr (ix2 k q)))
          + b (ix2 (0 : Fin 1) q)) (Ideal.ofBits .f32 0x00000000#32) := by
  unfold k1_pay1
  simp only [shapeCast_self]
  rw [maximumf_apply, broadcast_apply]
  rw [addf_apply, addf_apply, matmul64_apply, matmul64_apply, bias64_apply]
  rfl

/-- The body of region 2 at (p, q), as the layer's expression of its five loaded blocks: the two products' sums,
    the bias (rounding to bf16 and a cast to the same shape are the identity on the extended reals). -/
theorem k2_pay1_apply (x0 x1 : FVec Ideal S5000x64 .f32) (wl wr : FVec Ideal S64x32 .f32) (b : FVec Ideal S1x32 .f32)
    (p : Fin 5000) (q : Fin 32) :
    k2_pay1 (F := Ideal) x0 x1 wl wr b (ix2 p q)
      = ((∑ k : Fin 64, x0 (ix2 p k) * wl (ix2 k q)) + (∑ k : Fin 64, x1 (ix2 p k) * wr (ix2 k q)))
          + b (ix2 (0 : Fin 1) q) := by
  unfold k2_pay1
  simp only [shapeCast_self]
  rw [addf_apply, addf_apply, matmul32_apply, matmul32_apply, bias32_apply]
  rfl

/-- The body of region 3 at (p, q), as the layer's expression of its five loaded blocks: the two products' sums,
    the bias (rounding to bf16 and a cast to the same shape are the identity on the extended reals). -/
theorem k3_pay1_apply (x0 x1 : FVec Ideal S5000x64 .f32) (wl wr : FVec Ideal S64x32 .f32) (b : FVec Ideal S1x32 .f32)
    (p : Fin 5000) (q : Fin 32) :
    k3_pay1 (F := Ideal) x0 x1 wl wr b (ix2 p q)
      = ((∑ k : Fin 64, x0 (ix2 p k) * wl (ix2 k q)) + (∑ k : Fin 64, x1 (ix2 p k) * wr (ix2 k q)))
          + b (ix2 (0 : Fin 1) q) := by
  unfold k3_pay1
  simp only [shapeCast_self]
  rw [addf_apply, addf_apply, matmul32_apply, matmul32_apply, bias32_apply]
  rfl

end Cert.Sage.Block

end
-- ==== Proof.Region0.lean ====
/-
  Region 0: what the hidden layer's dense step leaves in its result array.

  The grid has 20 points; point t reads rows 5000 t … 5000 t + 4999 of the neighbourhood means and of the node
  features, the whole of the two weight matrices and of the bias row, and writes the same rows of the result.  So what
  point t writes back is block t of ONE function of the whole arrays — the layer, index by index — and since row r lies
  in the block of point r / 5000, the result array ends holding that function.
-/
import proofs.«138562_j36447092474375_1_alg».proof.Proof.Gen.KernelIdeal.Frame
import proofs.«138562_j36447092474375_1_alg».proof.Proof.Layer
import proofs.«138562_j36447092474375_1_alg».proof.Proof.BlockMatmul
import Idealize.ShloMosaic.Lib.Pipeline.Value

noncomputable section

namespace Cert.Sage.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The six windows' block indices over the 20 points: the means, the features and the result move one block of rows per
    point; the weights and the bias stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 5000 t … 5000 t + 4999 of the means. -/
theorem rows_0 (c : Dev nD) (t : Fin cfg0.N) (j : S5000x64.Idx) (i : S100000x64.Idx)
    (h0 : (i 0).val = 5000 * t.val + (j 0).val) (h1 : (i 1).val = (j 1).val) :
    (iblk0 V c 0 t : Vec Ideal S5000x64 .f32) j = (V c (Pipeline.arrRef spec0 0) : S100000x64.Idx → Elt Ideal .f32) i := by
  obtain ⟨a0, a1, b0, b1, -⟩ := idx_facts t
  unfold iblk0
  rw [View.read_apply]
  show (V c (Pipeline.arrRef spec0 0) : S100000x64.Idx → Elt Ideal .f32) _ = _
  congr 1
  funext a
  apply Fin.ext
  match a with
  | ⟨0, _⟩ => show win0_0.index t (0 : Fin 2) * 5000 + 1 * (j 0).val = (i 0).val; omega
  | ⟨1, _⟩ => show win0_0.index t (1 : Fin 2) * 64 + 1 * (j 1).val = (i 1).val; omega

/-- Window 1's block at point t is rows 5000 t … 5000 t + 4999 of the features. -/
theorem rows_1 (c : Dev nD) (t : Fin cfg0.N) (j : S5000x64.Idx) (i : S100000x64.Idx)
    (h0 : (i 0).val = 5000 * t.val + (j 0).val) (h1 : (i 1).val = (j 1).val) :
    (iblk0 V c 1 t : Vec Ideal S5000x64 .f32) j = (V c (Pipeline.arrRef spec0 1) : S100000x64.Idx → Elt Ideal .f32) i := by
  obtain ⟨a0, a1, b0, b1, -⟩ := idx_facts t
  unfold iblk0
  rw [View.read_apply]
  show (V c (Pipeline.arrRef spec0 1) : S100000x64.Idx → Elt Ideal .f32) _ = _
  congr 1
  funext a
  apply Fin.ext
  match a with
  | ⟨0, _⟩ => show win0_1.index t (0 : Fin 2) * 5000 + 1 * (j 0).val = (i 0).val; omega
  | ⟨1, _⟩ => show win0_1.index t (1 : Fin 2) * 64 + 1 * (j 1).val = (i 1).val; omega

/-- Window 2's block at every point is the whole of the first weight matrix. -/
theorem whole_2 (c : Dev nD) (t : Fin cfg0.N) :
    (iblk0 V c 2 t : Vec Ideal S64x64 .f32) = (V c (Pipeline.arrRef spec0 2) : S64x64.Idx → Elt Ideal .f32) := by
  obtain ⟨-, -, -, -, c0, c1, d0, d1, e0, e1, -⟩ := idx_facts t
  unfold iblk0
  funext j
  rw [View.read_apply]
  show (V c (Pipeline.arrRef spec0 2) : S64x64.Idx → Elt Ideal .f32) _ = _
  congr 1
  funext a
  apply Fin.ext
  match a with
  | ⟨0, _⟩ => show win0_2.index t (0 : Fin 2) * 64 + 1 * (j 0).val = (j 0).val; omega
  | ⟨1, _⟩ => show win0_2.index t (1 : Fin 2) * 64 + 1 * (j 1).val = (j 1).val; omega

/-- Window 3's block at every point is the whole of the bias row. -/
theorem whole_3 (c : Dev nD) (t : Fin cfg0.N) :
    (iblk0 V c 3 t : Vec Ideal S1x64 .f32) = (V c (Pipeline.arrRef spec0 3) : S1x64.Idx → Elt Ideal .f32) := by
  obtain ⟨-, -, -, -, c0, c1, d0, d1, e0, e1, -⟩ := idx_facts t
  unfold iblk0
  funext j
  rw [View.read_apply]
  show (V c (Pipeline.arrRef spec0 3) : S1x64.Idx → Elt Ideal .f32) _ = _
  congr 1
  funext a
  apply Fin.ext
  match a with
  | ⟨0, _⟩ => show win0_3.index t (0 : Fin 2) * 1 + 1 * (j 0).val = (j 0).val; omega
  | ⟨1, _⟩ => show win0_3.index t (1 : Fin 2) * 64 + 1 * (j 1).val = (j 1).val; omega

/-- Window 4's block at every point is the whole of the second weight matrix. -/
theorem whole_4 (c : Dev nD) (t : Fin cfg0.N) :
    (iblk0 V c 4 t : Vec Ideal S64x64 .f32) = (V c (Pipeline.arrRef spec0 4) : S64x64.Idx → Elt Ideal .f32) := by
  obtain ⟨-, -, -, -, c0, c1, d0, d1, e0, e1, -⟩ := idx_facts t
  unfold iblk0
  funext j
  rw [View.read_apply]
  show (V c (Pipeline.arrRef spec0 4) : S64x64.Idx → Elt Ideal .f32) _ = _
  congr 1
  funext a
  apply Fin.ext
  match a with
  | ⟨0, _⟩ => show win0_4.index t (0 : Fin 2) * 64 + 1 * (j 0).val = (j 0).val; omega
  | ⟨1, _⟩ => show win0_4.index t (1 : Fin 2) * 64 + 1 * (j 1).val = (j 1).val; omega

/-- The body on blocks that are rows 5000 T … of `mean` and `x` and the whole of `wl`, `b`, `wr`, read at an index
    of the block, is the layer at the index 5000 T rows further down. -/
theorem block_eq (mean x : FVec Ideal Nodes64 .f32) (wl : FVec Ideal W64 .f32) (b : FVec Ideal B64 .f32) (wr : FVec Ideal W64 .f32)
    (x0 x1 : FVec Ideal S5000x64 .f32) (x2 : FVec Ideal S64x64 .f32) (x3 : FVec Ideal S1x64 .f32) (x4 : FVec Ideal S64x64 .f32) (T : Nat)
    (h0 : ∀ (j : S5000x64.Idx) (i : S100000x64.Idx), (i 0).val = 5000 * T + (j 0).val → (i 1).val = (j 1).val → x0 j = mean i)
    (h1 : ∀ (j : S5000x64.Idx) (i : S100000x64.Idx), (i 0).val = 5000 * T + (j 0).val → (i 1).val = (j 1).val → x1 j = x i)
    (h2 : x2 = wl) (h3 : x3 = b) (h4 : x4 = wr)
    (j : S5000x64.Idx) (i : S100000x64.Idx) (hi0 : (i 0).val = 5000 * T + (j 0).val) (hi1 : (i 1).val = (j 1).val) :
    k0_pay1 (F := Ideal) x0 x1 x2 x4 x3 j = hidden64 mean x wl b wr i := by
  subst h2 h3 h4
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  have e0 : ∀ k : Fin 64, x0 (ix2 p k) = mean (ix2 r k) := fun k => h0 (ix2 p k) (ix2 r k) hi0 rfl
  have e1 : ∀ k : Fin 64, x1 (ix2 p k) = x (ix2 r k) := fun k => h1 (ix2 p k) (ix2 r k) hi0 rfl
  rw [Block.k0_pay1_apply]
  simp only [e0, e1]
  rfl

/-- WHAT POINT t WRITES BACK is block t of the layer of the arrays as the region finds them. -/
theorem flushed_eq (c : Dev nD) (t : Fin cfg0.N) :
    (dat0 (F := Ideal) V c).flushed 5 t = ((cfg0.win 5).blk t).view.read (Elt Ideal)
      (hidden64 (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  funext j
  rw [View.read_apply]
  show k0_pay1 (F := Ideal) (iblk0 V c 0 t) (iblk0 V c 1 t) (iblk0 V c 2 t) (iblk0 V c 4 t) (iblk0 V c 3 t) j
    = hidden64 (V c (Pipeline.arrRef spec0 0)) (V c (Pipeline.arrRef spec0 1)) (V c (Pipeline.arrRef spec0 2)) (V c (Pipeline.arrRef spec0 3)) (V c (Pipeline.arrRef spec0 4)) (((cfg0.win 5).blk t).view.emb j)
  obtain ⟨-, -, -, -, -, -, -, -, -, -, f0, f1⟩ := idx_facts t
  refine block_eq (V c (Pipeline.arrRef spec0 0)) (V c (Pipeline.arrRef spec0 1)) (V c (Pipeline.arrRef spec0 2)) (V c (Pipeline.arrRef spec0 3)) (V c (Pipeline.arrRef spec0 4))
    (iblk0 V c 0 t) (iblk0 V c 1 t) (iblk0 V c 2 t) (iblk0 V c 3 t) (iblk0 V c 4 t) t.val
    (fun j i h0 h1 => rows_0 V c t j i h0 h1) (fun j i h0 h1 => rows_1 V c t j i h0 h1)
    (whole_2 V c t) (whole_3 V c t) (whole_4 V c t) j (((cfg0.win 5).blk t).view.emb j) ?_ ?_
  · show win0_5.index t (0 : Fin 2) * 5000 + 1 * (j 0).val = 5000 * t.val + (j 0).val; omega
  · show win0_5.index t (1 : Fin 2) * 64 + 1 * (j 1).val = (j 1).val; omega

/-- An index of the result array is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole (Pipeline.arrRef spec0 5)).slice (win0_5.rect t)).set ↔ _
  rw [View.set_slice_whole, Rect.mem_set_unit]
  exact Iff.rfl

/-- Row r of the result lies in the block of point r / 5000, which writes it back. -/
theorem cover (c : Dev nD) (i : ((cfg0.win 5).arr.view.loc (c.tc : Thread nD τ)).2.ty.Idx) :
    ∃ t : Fin cfg0.N, (cfg0.win 5).flush t = true ∧ i ∈ ((cfg0.win 5).blk t).view.set := by
  have hN : cfg0.N = 20 := N_0
  have hi0 : ((i 0 : Fin 100000) : Nat) < 100000 := (i 0).isLt
  have hi1 : ((i 1 : Fin 64) : Nat) < 64 := (i 1).isLt
  obtain ⟨t, ht⟩ : ∃ t : Fin cfg0.N, t.val = (i 0).val / 5000 := ⟨⟨(i 0).val / 5000, by rw [hN]; omega⟩, rfl⟩
  obtain ⟨-, -, -, -, -, -, -, -, -, -, f0, f1⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE RESULT ARRAY after the region: the layer of the arrays as the region finds them. -/
theorem final (c : Dev nD) :
    (dat0 (F := Ideal) V c).arrAt 5 cfg0.N
      = hidden64 (V c (Pipeline.arrRef spec0 0)) (V c (Pipeline.arrRef spec0 1)) (V c (Pipeline.arrRef spec0 2)) (V c (Pipeline.arrRef spec0 3)) (V c (Pipeline.arrRef spec0 4)) :=
  (dat0 (F := Ideal) V c).arrAt_eq_of_cover 5 _ (fun t _ => flushed_eq V c t) (cover c)

end Cert.Sage.Region0

end
-- ==== Proof.Region1.lean ====
/-
  Region 1: what the hidden layer's dense step leaves in its result array.

  The grid has 20 points; point t reads rows 5000 t … 5000 t + 4999 of the neighbourhood means and of the node
  features, the whole of the two weight matrices and of the bias row, and writes the same rows of the result.  So what
  point t writes back is block t of ONE function of the whole arrays — the layer, index by index — and since row r lies
  in the block of point r / 5000, the result array ends holding that function.
-/
import proofs.«138562_j36447092474375_1_alg».proof.Proof.Gen.KernelIdeal.Frame
import proofs.«138562_j36447092474375_1_alg».proof.Proof.Layer
import proofs.«138562_j36447092474375_1_alg».proof.Proof.BlockMatmul
import Idealize.ShloMosaic.Lib.Pipeline.Value

noncomputable section

namespace Cert.Sage.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The six windows' block indices over the 20 points: the means, the features and the result move one block of rows per
    point; the weights and the bias stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 5000 t … 5000 t + 4999 of the means. -/
theorem rows_0 (c : Dev nD) (t : Fin cfg1.N) (j : S5000x64.Idx) (i : S100000x64.Idx)
    (h0 : (i 0).val = 5000 * t.val + (j 0).val) (h1 : (i 1).val = (j 1).val) :
    (iblk1 V c 0 t : Vec Ideal S5000x64 .f32) j = (V c (Pipeline.arrRef spec1 0) : S100000x64.Idx → Elt Ideal .f32) i := by
  obtain ⟨a0, a1, b0, b1, -⟩ := idx_facts t
  unfold iblk1
  rw [View.read_apply]
  show (V c (Pipeline.arrRef spec1 0) : S100000x64.Idx → Elt Ideal .f32) _ = _
  congr 1
  funext a
  apply Fin.ext
  match a with
  | ⟨0, _⟩ => show win1_0.index t (0 : Fin 2) * 5000 + 1 * (j 0).val = (i 0).val; omega
  | ⟨1, _⟩ => show win1_0.index t (1 : Fin 2) * 64 + 1 * (j 1).val = (i 1).val; omega

/-- Window 1's block at point t is rows 5000 t … 5000 t + 4999 of the features. -/
theorem rows_1 (c : Dev nD) (t : Fin cfg1.N) (j : S5000x64.Idx) (i : S100000x64.Idx)
    (h0 : (i 0).val = 5000 * t.val + (j 0).val) (h1 : (i 1).val = (j 1).val) :
    (iblk1 V c 1 t : Vec Ideal S5000x64 .f32) j = (V c (Pipeline.arrRef spec1 1) : S100000x64.Idx → Elt Ideal .f32) i := by
  obtain ⟨a0, a1, b0, b1, -⟩ := idx_facts t
  unfold iblk1
  rw [View.read_apply]
  show (V c (Pipeline.arrRef spec1 1) : S100000x64.Idx → Elt Ideal .f32) _ = _
  congr 1
  funext a
  apply Fin.ext
  match a with
  | ⟨0, _⟩ => show win1_1.index t (0 : Fin 2) * 5000 + 1 * (j 0).val = (i 0).val; omega
  | ⟨1, _⟩ => show win1_1.index t (1 : Fin 2) * 64 + 1 * (j 1).val = (i 1).val; omega

/-- Window 2's block at every point is the whole of the first weight matrix. -/
theorem whole_2 (c : Dev nD) (t : Fin cfg1.N) :
    (iblk1 V c 2 t : Vec Ideal S64x64 .f32) = (V c (Pipeline.arrRef spec1 2) : S64x64.Idx → Elt Ideal .f32) := by
  obtain ⟨-, -, -, -, c0, c1, d0, d1, e0, e1, -⟩ := idx_facts t
  unfold iblk1
  funext j
  rw [View.read_apply]
  show (V c (Pipeline.arrRef spec1 2) : S64x64.Idx → Elt Ideal .f32) _ = _
  congr 1
  funext a
  apply Fin.ext
  match a with
  | ⟨0, _⟩ => show win1_2.index t (0 : Fin 2) * 64 + 1 * (j 0).val = (j 0).val; omega
  | ⟨1, _⟩ => show win1_2.index t (1 : Fin 2) * 64 + 1 * (j 1).val = (j 1).val; omega

/-- Window 3's block at every point is the whole of the bias row. -/
theorem whole_3 (c : Dev nD) (t : Fin cfg1.N) :
    (iblk1 V c 3 t : Vec Ideal S1x64 .f32) = (V c (Pipeline.arrRef spec1 3) : S1x64.Idx → Elt Ideal .f32) := by
  obtain ⟨-, -, -, -, c0, c1, d0, d1, e0, e1, -⟩ := idx_facts t
  unfold iblk1
  funext j
  rw [View.read_apply]
  show (V c (Pipeline.arrRef spec1 3) : S1x64.Idx → Elt Ideal .f32) _ = _
  congr 1
  funext a
  apply Fin.ext
  match a with
  | ⟨0, _⟩ => show win1_3.index t (0 : Fin 2) * 1 + 1 * (j 0).val = (j 0).val; omega
  | ⟨1, _⟩ => show win1_3.index t (1 : Fin 2) * 64 + 1 * (j 1).val = (j 1).val; omega

/-- Window 4's block at every point is the whole of the second weight matrix. -/
theorem whole_4 (c : Dev nD) (t : Fin cfg1.N) :
    (iblk1 V c 4 t : Vec Ideal S64x64 .f32) = (V c (Pipeline.arrRef spec1 4) : S64x64.Idx → Elt Ideal .f32) := by
  obtain ⟨-, -, -, -, c0, c1, d0, d1, e0, e1, -⟩ := idx_facts t
  unfold iblk1
  funext j
  rw [View.read_apply]
  show (V c (Pipeline.arrRef spec1 4) : S64x64.Idx → Elt Ideal .f32) _ = _
  congr 1
  funext a
  apply Fin.ext
  match a with
  | ⟨0, _⟩ => show win1_4.index t (0 : Fin 2) * 64 + 1 * (j 0).val = (j 0).val; omega
  | ⟨1, _⟩ => show win1_4.index t (1 : Fin 2) * 64 + 1 * (j 1).val = (j 1).val; omega

/-- The body on blocks that are rows 5000 T … of `mean` and `x` and the whole of `wl`, `b`, `wr`, read at an index
    of the block, is the layer at the index 5000 T rows further down. -/
theorem block_eq (mean x : FVec Ideal Nodes64 .f32) (wl : FVec Ideal W64 .f32) (b : FVec Ideal B64 .f32) (wr : FVec Ideal W64 .f32)
    (x0 x1 : FVec Ideal S5000x64 .f32) (x2 : FVec Ideal S64x64 .f32) (x3 : FVec Ideal S1x64 .f32) (x4 : FVec Ideal S64x64 .f32) (T : Nat)
    (h0 : ∀ (j : S5000x64.Idx) (i : S100000x64.Idx), (i 0).val = 5000 * T + (j 0).val → (i 1).val = (j 1).val → x0 j = mean i)
    (h1 : ∀ (j : S5000x64.Idx) (i : S100000x64.Idx), (i 0).val = 5000 * T + (j 0).val → (i 1).val = (j 1).val → x1 j = x i)
    (h2 : x2 = wl) (h3 : x3 = b) (h4 : x4 = wr)
    (j : S5000x64.Idx) (i : S100000x64.Idx) (hi0 : (i 0).val = 5000 * T + (j 0).val) (hi1 : (i 1).val = (j 1).val) :
    k1_pay1 (F := Ideal) x0 x1 x2 x4 x3 j = hidden64 mean x wl b wr i := by
  subst h2 h3 h4
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  have e0 : ∀ k : Fin 64, x0 (ix2 p k) = mean (ix2 r k) := fun k => h0 (ix2 p k) (ix2 r k) hi0 rfl
  have e1 : ∀ k : Fin 64, x1 (ix2 p k) = x (ix2 r k) := fun k => h1 (ix2 p k) (ix2 r k) hi0 rfl
  rw [Block.k1_pay1_apply]
  simp only [e0, e1]
  rfl

/-- WHAT POINT t WRITES BACK is block t of the layer of the arrays as the region finds them. -/
theorem flushed_eq (c : Dev nD) (t : Fin cfg1.N) :
    (dat1 (F := Ideal) V c).flushed 5 t = ((cfg1.win 5).blk t).view.read (Elt Ideal)
      (hidden64 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  rw [View.read_apply]
  show k1_pay1 (F := Ideal) (iblk1 V c 0 t) (iblk1 V c 1 t) (iblk1 V c 2 t) (iblk1 V c 4 t) (iblk1 V c 3 t) j
    = hidden64 (V c (Pipeline.arrRef spec1 0)) (V c (Pipeline.arrRef spec1 1)) (V c (Pipeline.arrRef spec1 2)) (V c (Pipeline.arrRef spec1 3)) (V c (Pipeline.arrRef spec1 4)) (((cfg1.win 5).blk t).view.emb j)
  obtain ⟨-, -, -, -, -, -, -, -, -, -, f0, f1⟩ := idx_facts t
  refine block_eq (V c (Pipeline.arrRef spec1 0)) (V c (Pipeline.arrRef spec1 1)) (V c (Pipeline.arrRef spec1 2)) (V c (Pipeline.arrRef spec1 3)) (V c (Pipeline.arrRef spec1 4))
    (iblk1 V c 0 t) (iblk1 V c 1 t) (iblk1 V c 2 t) (iblk1 V c 3 t) (iblk1 V c 4 t) t.val
    (fun j i h0 h1 => rows_0 V c t j i h0 h1) (fun j i h0 h1 => rows_1 V c t j i h0 h1)
    (whole_2 V c t) (whole_3 V c t) (whole_4 V c t) j (((cfg1.win 5).blk t).view.emb j) ?_ ?_
  · show win1_5.index t (0 : Fin 2) * 5000 + 1 * (j 0).val = 5000 * t.val + (j 0).val; omega
  · show win1_5.index t (1 : Fin 2) * 64 + 1 * (j 1).val = (j 1).val; omega

/-- An index of the result array is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole (Pipeline.arrRef spec1 5)).slice (win1_5.rect t)).set ↔ _
  rw [View.set_slice_whole, Rect.mem_set_unit]
  exact Iff.rfl

/-- Row r of the result lies in the block of point r / 5000, which writes it back. -/
theorem cover (c : Dev nD) (i : ((cfg1.win 5).arr.view.loc (c.tc : Thread nD τ)).2.ty.Idx) :
    ∃ t : Fin cfg1.N, (cfg1.win 5).flush t = true ∧ i ∈ ((cfg1.win 5).blk t).view.set := by
  have hN : cfg1.N = 20 := N_1
  have hi0 : ((i 0 : Fin 100000) : Nat) < 100000 := (i 0).isLt
  have hi1 : ((i 1 : Fin 64) : Nat) < 64 := (i 1).isLt
  obtain ⟨t, ht⟩ : ∃ t : Fin cfg1.N, t.val = (i 0).val / 5000 := ⟨⟨(i 0).val / 5000, by rw [hN]; omega⟩, rfl⟩
  obtain ⟨-, -, -, -, -, -, -, -, -, -, f0, f1⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE RESULT ARRAY after the region: the layer of the arrays as the region finds them. -/
theorem final (c : Dev nD) :
    (dat1 (F := Ideal) V c).arrAt 5 cfg1.N
      = hidden64 (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed_eq V c t) (cover c)

end Cert.Sage.Region1

end
-- ==== Proof.Region2.lean ====
/-
  Region 2: what the head's dense step leaves in its result array.

  The grid has 20 points; point t reads rows 5000 t … 5000 t + 4999 of the neighbourhood means and of the node
  features, the whole of the two weight matrices and of the bias row, and writes the same rows of the result.  So what
  point t writes back is block t of ONE function of the whole arrays — the layer, index by index — and since row r lies
  in the block of point r / 5000, the result array ends holding that function.
-/
import proofs.«138562_j36447092474375_1_alg».proof.Proof.Gen.KernelIdeal.Frame
import proofs.«138562_j36447092474375_1_alg».proof.Proof.Layer
import proofs.«138562_j36447092474375_1_alg».proof.Proof.BlockMatmul
import Idealize.ShloMosaic.Lib.Pipeline.Value

noncomputable section

namespace Cert.Sage.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The six windows' block indices over the 20 points: the means, the features and the result move one block of rows per
    point; the weights and the bias stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t is rows 5000 t … 5000 t + 4999 of the means. -/
theorem rows_0 (c : Dev nD) (t : Fin cfg2.N) (j : S5000x64.Idx) (i : S100000x64.Idx)
    (h0 : (i 0).val = 5000 * t.val + (j 0).val) (h1 : (i 1).val = (j 1).val) :
    (iblk2 V c 0 t : Vec Ideal S5000x64 .f32) j = (V c (Pipeline.arrRef spec2 0) : S100000x64.Idx → Elt Ideal .f32) i := by
  obtain ⟨a0, a1, b0, b1, -⟩ := idx_facts t
  unfold iblk2
  rw [View.read_apply]
  show (V c (Pipeline.arrRef spec2 0) : S100000x64.Idx → Elt Ideal .f32) _ = _
  congr 1
  funext a
  apply Fin.ext
  match a with
  | ⟨0, _⟩ => show win2_0.index t (0 : Fin 2) * 5000 + 1 * (j 0).val = (i 0).val; omega
  | ⟨1, _⟩ => show win2_0.index t (1 : Fin 2) * 64 + 1 * (j 1).val = (i 1).val; omega

/-- Window 1's block at point t is rows 5000 t … 5000 t + 4999 of the features. -/
theorem rows_1 (c : Dev nD) (t : Fin cfg2.N) (j : S5000x64.Idx) (i : S100000x64.Idx)
    (h0 : (i 0).val = 5000 * t.val + (j 0).val) (h1 : (i 1).val = (j 1).val) :
    (iblk2 V c 1 t : Vec Ideal S5000x64 .f32) j = (V c (Pipeline.arrRef spec2 1) : S100000x64.Idx → Elt Ideal .f32) i := by
  obtain ⟨a0, a1, b0, b1, -⟩ := idx_facts t
  unfold iblk2
  rw [View.read_apply]
  show (V c (Pipeline.arrRef spec2 1) : S100000x64.Idx → Elt Ideal .f32) _ = _
  congr 1
  funext a
  apply Fin.ext
  match a with
  | ⟨0, _⟩ => show win2_1.index t (0 : Fin 2) * 5000 + 1 * (j 0).val = (i 0).val; omega
  | ⟨1, _⟩ => show win2_1.index t (1 : Fin 2) * 64 + 1 * (j 1).val = (i 1).val; omega

/-- Window 2's block at every point is the whole of the first weight matrix. -/
theorem whole_2 (c : Dev nD) (t : Fin cfg2.N) :
    (iblk2 V c 2 t : Vec Ideal S64x32 .f32) = (V c (Pipeline.arrRef spec2 2) : S64x32.Idx → Elt Ideal .f32) := by
  obtain ⟨-, -, -, -, c0, c1, d0, d1, e0, e1, -⟩ := idx_facts t
  unfold iblk2
  funext j
  rw [View.read_apply]
  show (V c (Pipeline.arrRef spec2 2) : S64x32.Idx → Elt Ideal .f32) _ = _
  congr 1
  funext a
  apply Fin.ext
  match a with
  | ⟨0, _⟩ => show win2_2.index t (0 : Fin 2) * 64 + 1 * (j 0).val = (j 0).val; omega
  | ⟨1, _⟩ => show win2_2.index t (1 : Fin 2) * 32 + 1 * (j 1).val = (j 1).val; omega

/-- Window 3's block at every point is the whole of the bias row. -/
theorem whole_3 (c : Dev nD) (t : Fin cfg2.N) :
    (iblk2 V c 3 t : Vec Ideal S1x32 .f32) = (V c (Pipeline.arrRef spec2 3) : S1x32.Idx → Elt Ideal .f32) := by
  obtain ⟨-, -, -, -, c0, c1, d0, d1, e0, e1, -⟩ := idx_facts t
  unfold iblk2
  funext j
  rw [View.read_apply]
  show (V c (Pipeline.arrRef spec2 3) : S1x32.Idx → Elt Ideal .f32) _ = _
  congr 1
  funext a
  apply Fin.ext
  match a with
  | ⟨0, _⟩ => show win2_3.index t (0 : Fin 2) * 1 + 1 * (j 0).val = (j 0).val; omega
  | ⟨1, _⟩ => show win2_3.index t (1 : Fin 2) * 32 + 1 * (j 1).val = (j 1).val; omega

/-- Window 4's block at every point is the whole of the second weight matrix. -/
theorem whole_4 (c : Dev nD) (t : Fin cfg2.N) :
    (iblk2 V c 4 t : Vec Ideal S64x32 .f32) = (V c (Pipeline.arrRef spec2 4) : S64x32.Idx → Elt Ideal .f32) := by
  obtain ⟨-, -, -, -, c0, c1, d0, d1, e0, e1, -⟩ := idx_facts t
  unfold iblk2
  funext j
  rw [View.read_apply]
  show (V c (Pipeline.arrRef spec2 4) : S64x32.Idx → Elt Ideal .f32) _ = _
  congr 1
  funext a
  apply Fin.ext
  match a with
  | ⟨0, _⟩ => show win2_4.index t (0 : Fin 2) * 64 + 1 * (j 0).val = (j 0).val; omega
  | ⟨1, _⟩ => show win2_4.index t (1 : Fin 2) * 32 + 1 * (j 1).val = (j 1).val; omega

/-- The body on blocks that are rows 5000 T … of `mean` and `x` and the whole of `wl`, `b`, `wr`, read at an index
    of the block, is the layer at the index 5000 T rows further down. -/
theorem block_eq (mean x : FVec Ideal Nodes64 .f32) (wl : FVec Ideal W32 .f32) (b : FVec Ideal B32 .f32) (wr : FVec Ideal W32 .f32)
    (x0 x1 : FVec Ideal S5000x64 .f32) (x2 : FVec Ideal S64x32 .f32) (x3 : FVec Ideal S1x32 .f32) (x4 : FVec Ideal S64x32 .f32) (T : Nat)
    (h0 : ∀ (j : S5000x64.Idx) (i : S100000x64.Idx), (i 0).val = 5000 * T + (j 0).val → (i 1).val = (j 1).val → x0 j = mean i)
    (h1 : ∀ (j : S5000x64.Idx) (i : S100000x64.Idx), (i 0).val = 5000 * T + (j 0).val → (i 1).val = (j 1).val → x1 j = x i)
    (h2 : x2 = wl) (h3 : x3 = b) (h4 : x4 = wr)
    (j : S5000x32.Idx) (i : S100000x32.Idx) (hi0 : (i 0).val = 5000 * T + (j 0).val) (hi1 : (i 1).val = (j 1).val) :
    k2_pay1 (F := Ideal) x0 x1 x2 x4 x3 j = head32 mean x wl b wr i := by
  subst h2 h3 h4
  obtain ⟨p, q, rfl⟩ : ∃ (p : Fin 5000) (q : Fin 32), j = ix2 p q := ⟨j 0, j 1, eq_ix2 j⟩
  obtain ⟨r, q', rfl⟩ : ∃ (r : Fin 100000) (q' : Fin 32), i = ix2 r q' := ⟨i 0, i 1, eq_ix2 i⟩
  obtain rfl : q' = q := Fin.ext hi1
  have e0 : ∀ k : Fin 64, x0 (ix2 p k) = mean (ix2 r k) := fun k => h0 (ix2 p k) (ix2 r k) hi0 rfl
  have e1 : ∀ k : Fin 64, x1 (ix2 p k) = x (ix2 r k) := fun k => h1 (ix2 p k) (ix2 r k) hi0 rfl
  rw [Block.k2_pay1_apply]
  simp only [e0, e1]
  rfl

set_option maxHeartbeats 1000000 in
/-- WHAT POINT t WRITES BACK is block t of the layer of the arrays as the region finds them. -/
theorem flushed_eq (c : Dev nD) (t : Fin cfg2.N) :
    (dat2 (F := Ideal) V c).flushed 5 t = ((cfg2.win 5).blk t).view.read (Elt Ideal)
      (head32 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S5000x64) hz, View.ld_unit_zero (S := S64x32) hz, View.ld_unit_zero (S := S1x32) hz]
  funext j
  rw [View.read_apply]
  show k2_pay1 (F := Ideal) (iblk2 V c 0 t) (iblk2 V c 1 t) (iblk2 V c 2 t) (iblk2 V c 4 t) (iblk2 V c 3 t) j
    = head32 (V c (Pipeline.arrRef spec2 0)) (V c (Pipeline.arrRef spec2 1)) (V c (Pipeline.arrRef spec2 2)) (V c (Pipeline.arrRef spec2 3)) (V c (Pipeline.arrRef spec2 4)) (((cfg2.win 5).blk t).view.emb j)
  obtain ⟨-, -, -, -, -, -, -, -, -, -, f0, f1⟩ := idx_facts t
  refine block_eq (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 1 t) (iblk2 V c 2 t) (iblk2 V c 3 t) (iblk2 V c 4 t) t.val
    (fun j i h0 h1 => rows_0 V c t j i h0 h1) (fun j i h0 h1 => rows_1 V c t j i h0 h1)
    (whole_2 V c t) (whole_3 V c t) (whole_4 V c t) j (((cfg2.win 5).blk t).view.emb j) ?_ ?_
  · show win2_5.index t (0 : Fin 2) * 5000 + 1 * (j 0).val = 5000 * t.val + (j 0).val; omega
  · show win2_5.index t (1 : Fin 2) * 32 + 1 * (j 1).val = (j 1).val; omega

/-- An index of the result array is in point t's block iff each coordinate is in the block's range on its axis. -/
theorem mem_blk (t : Fin cfg2.N) (i : S100000x32.Idx) :
    i ∈ ((cfg2.win 5).blk t).view.set ↔ ∀ a : Fin 2, win2_5.index t a * S5000x32.size a ≤ (i a).val ∧ (i a).val < win2_5.index t a * S5000x32.size a + S5000x32.size a := by
  show i ∈ ((View.whole (Pipeline.arrRef spec2 5)).slice (win2_5.rect t)).set ↔ _
  rw [View.set_slice_whole, Rect.mem_set_unit]
  exact Iff.rfl

/-- Row r of the result lies in the block of point r / 5000, which writes it back. -/
theorem cover (c : Dev nD) (i : ((cfg2.win 5).arr.view.loc (c.tc : Thread nD τ)).2.ty.Idx) :
    ∃ t : Fin cfg2.N, (cfg2.win 5).flush t = true ∧ i ∈ ((cfg2.win 5).blk t).view.set := by
  have hN : cfg2.N = 20 := N_2
  have hi0 : ((i 0 : Fin 100000) : Nat) < 100000 := (i 0).isLt
  have hi1 : ((i 1 : Fin 32) : Nat) < 32 := (i 1).isLt
  obtain ⟨t, ht⟩ : ∃ t : Fin cfg2.N, t.val = (i 0).val / 5000 := ⟨⟨(i 0).val / 5000, by rw [hN]; omega⟩, rfl⟩
  obtain ⟨-, -, -, -, -, -, -, -, -, -, f0, f1⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 32 ≤ (i 1).val ∧ (i 1).val < win2_5.index t (1 : Fin 2) * 32 + 32; omega

/-- THE RESULT ARRAY after the region: the layer of the arrays as the region finds them. -/
theorem final (c : Dev nD) :
    (dat2 (F := Ideal) V c).arrAt 5 cfg2.N
      = head32 (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed_eq V c t) (cover c)

end Cert.Sage.Region2

end
-- ==== Proof.Region3.lean ====
/-
  Region 3: what the head's dense step leaves in its result array.

  The grid has 20 points; point t reads rows 5000 t … 5000 t + 4999 of the neighbourhood means and of the node
  features, the whole of the two weight matrices and of the bias row, and writes the same rows of the result.  So what
  point t writes back is block t of ONE function of the whole arrays — the layer, index by index — and since row r lies
  in the block of point r / 5000, the result array ends holding that function.
-/
import proofs.«138562_j36447092474375_1_alg».proof.Proof.Gen.KernelIdeal.Frame
import proofs.«138562_j36447092474375_1_alg».proof.Proof.Layer
import proofs.«138562_j36447092474375_1_alg».proof.Proof.BlockMatmul
import Idealize.ShloMosaic.Lib.Pipeline.Value

noncomputable section

namespace Cert.Sage.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The six windows' block indices over the 20 points: the means, the features and the result move one block of rows per
    point; the weights and the bias stay at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Window 0's block at point t is rows 5000 t … 5000 t + 4999 of the means. -/
theorem rows_0 (c : Dev nD) (t : Fin cfg3.N) (j : S5000x64.Idx) (i : S100000x64.Idx)
    (h0 : (i 0).val = 5000 * t.val + (j 0).val) (h1 : (i 1).val = (j 1).val) :
    (iblk3 V c 0 t : Vec Ideal S5000x64 .f32) j = (V c (Pipeline.arrRef spec3 0) : S100000x64.Idx → Elt Ideal .f32) i := by
  obtain ⟨a0, a1, b0, b1, -⟩ := idx_facts t
  unfold iblk3
  rw [View.read_apply]
  show (V c (Pipeline.arrRef spec3 0) : S100000x64.Idx → Elt Ideal .f32) _ = _
  congr 1
  funext a
  apply Fin.ext
  match a with
  | ⟨0, _⟩ => show win3_0.index t (0 : Fin 2) * 5000 + 1 * (j 0).val = (i 0).val; omega
  | ⟨1, _⟩ => show win3_0.index t (1 : Fin 2) * 64 + 1 * (j 1).val = (i 1).val; omega

/-- Window 1's block at point t is rows 5000 t … 5000 t + 4999 of the features. -/
theorem rows_1 (c : Dev nD) (t : Fin cfg3.N) (j : S5000x64.Idx) (i : S100000x64.Idx)
    (h0 : (i 0).val = 5000 * t.val + (j 0).val) (h1 : (i 1).val = (j 1).val) :
    (iblk3 V c 1 t : Vec Ideal S5000x64 .f32) j = (V c (Pipeline.arrRef spec3 1) : S100000x64.Idx → Elt Ideal .f32) i := by
  obtain ⟨a0, a1, b0, b1, -⟩ := idx_facts t
  unfold iblk3
  rw [View.read_apply]
  show (V c (Pipeline.arrRef spec3 1) : S100000x64.Idx → Elt Ideal .f32) _ = _
  congr 1
  funext a
  apply Fin.ext
  match a with
  | ⟨0, _⟩ => show win3_1.index t (0 : Fin 2) * 5000 + 1 * (j 0).val = (i 0).val; omega
  | ⟨1, _⟩ => show win3_1.index t (1 : Fin 2) * 64 + 1 * (j 1).val = (i 1).val; omega

/-- Window 2's block at every point is the whole of the first weight matrix. -/
theorem whole_2 (c : Dev nD) (t : Fin cfg3.N) :
    (iblk3 V c 2 t : Vec Ideal S64x32 .f32) = (V c (Pipeline.arrRef spec3 2) : S64x32.Idx → Elt Ideal .f32) := by
  obtain ⟨-, -, -, -, c0, c1, d0, d1, e0, e1, -⟩ := idx_facts t
  unfold iblk3
  funext j
  rw [View.read_apply]
  show (V c (Pipeline.arrRef spec3 2) : S64x32.Idx → Elt Ideal .f32) _ = _
  congr 1
  funext a
  apply Fin.ext
  match a with
  | ⟨0, _⟩ => show win3_2.index t (0 : Fin 2) * 64 + 1 * (j 0).val = (j 0).val; omega
  | ⟨1, _⟩ => show win3_2.index t (1 : Fin 2) * 32 + 1 * (j 1).val = (j 1).val; omega

/-- Window 3's block at every point is the whole of the bias row. -/
theorem whole_3 (c : Dev nD) (t : Fin cfg3.N) :
    (iblk3 V c 3 t : Vec Ideal S1x32 .f32) = (V c (Pipeline.arrRef spec3 3) : S1x32.Idx → Elt Ideal .f32) := by
  obtain ⟨-, -, -, -, c0, c1, d0, d1, e0, e1, -⟩ := idx_facts t
  unfold iblk3
  funext j
  rw [View.read_apply]
  show (V c (Pipeline.arrRef spec3 3) : S1x32.Idx → Elt Ideal .f32) _ = _
  congr 1
  funext a
  apply Fin.ext
  match a with
  | ⟨0, _⟩ => show win3_3.index t (0 : Fin 2) * 1 + 1 * (j 0).val = (j 0).val; omega
  | ⟨1, _⟩ => show win3_3.index t (1 : Fin 2) * 32 + 1 * (j 1).val = (j 1).val; omega

/-- Window 4's block at every point is the whole of the second weight matrix. -/
theorem whole_4 (c : Dev nD) (t : Fin cfg3.N) :
    (iblk3 V c 4 t : Vec Ideal S64x32 .f32) = (V c (Pipeline.arrRef spec3 4) : S64x32.Idx → Elt Ideal .f32) := by
  obtain ⟨-, -, -, -, c0, c1, d0, d1, e0, e1, -⟩ := idx_facts t
  unfold iblk3
  funext j
  rw [View.read_apply]
  show (V c (Pipeline.arrRef spec3 4) : S64x32.Idx → Elt Ideal .f32) _ = _
  congr 1
  funext a
  apply Fin.ext
  match a with
  | ⟨0, _⟩ => show win3_4.index t (0 : Fin 2) * 64 + 1 * (j 0).val = (j 0).val; omega
  | ⟨1, _⟩ => show win3_4.index t (1 : Fin 2) * 32 + 1 * (j 1).val = (j 1).val; omega

/-- The body on blocks that are rows 5000 T … of `mean` and `x` and the whole of `wl`, `b`, `wr`, read at an index
    of the block, is the layer at the index 5000 T rows further down. -/
theorem block_eq (mean x : FVec Ideal Nodes64 .f32) (wl : FVec Ideal W32 .f32) (b : FVec Ideal B32 .f32) (wr : FVec Ideal W32 .f32)
    (x0 x1 : FVec Ideal S5000x64 .f32) (x2 : FVec Ideal S64x32 .f32) (x3 : FVec Ideal S1x32 .f32) (x4 : FVec Ideal S64x32 .f32) (T : Nat)
    (h0 : ∀ (j : S5000x64.Idx) (i : S100000x64.Idx), (i 0).val = 5000 * T + (j 0).val → (i 1).val = (j 1).val → x0 j = mean i)
    (h1 : ∀ (j : S5000x64.Idx) (i : S100000x64.Idx), (i 0).val = 5000 * T + (j 0).val → (i 1).val = (j 1).val → x1 j = x i)
    (h2 : x2 = wl) (h3 : x3 = b) (h4 : x4 = wr)
    (j : S5000x32.Idx) (i : S100000x32.Idx) (hi0 : (i 0).val = 5000 * T + (j 0).val) (hi1 : (i 1).val = (j 1).val) :
    k3_pay1 (F := Ideal) x0 x1 x2 x4 x3 j = head32 mean x wl b wr i := by
  subst h2 h3 h4
  obtain ⟨p, q, rfl⟩ : ∃ (p : Fin 5000) (q : Fin 32), j = ix2 p q := ⟨j 0, j 1, eq_ix2 j⟩
  obtain ⟨r, q', rfl⟩ : ∃ (r : Fin 100000) (q' : Fin 32), i = ix2 r q' := ⟨i 0, i 1, eq_ix2 i⟩
  obtain rfl : q' = q := Fin.ext hi1
  have e0 : ∀ k : Fin 64, x0 (ix2 p k) = mean (ix2 r k) := fun k => h0 (ix2 p k) (ix2 r k) hi0 rfl
  have e1 : ∀ k : Fin 64, x1 (ix2 p k) = x (ix2 r k) := fun k => h1 (ix2 p k) (ix2 r k) hi0 rfl
  rw [Block.k3_pay1_apply]
  simp only [e0, e1]
  rfl

set_option maxHeartbeats 1000000 in
/-- WHAT POINT t WRITES BACK is block t of the layer of the arrays as the region finds them. -/
theorem flushed_eq (c : Dev nD) (t : Fin cfg3.N) :
    (dat3 (F := Ideal) V c).flushed 5 t = ((cfg3.win 5).blk t).view.read (Elt Ideal)
      (head32 (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S5000x64) hz, View.ld_unit_zero (S := S64x32) hz, View.ld_unit_zero (S := S1x32) hz]
  funext j
  rw [View.read_apply]
  show k3_pay1 (F := Ideal) (iblk3 V c 0 t) (iblk3 V c 1 t) (iblk3 V c 2 t) (iblk3 V c 4 t) (iblk3 V c 3 t) j
    = head32 (V c (Pipeline.arrRef spec3 0)) (V c (Pipeline.arrRef spec3 1)) (V c (Pipeline.arrRef spec3 2)) (V c (Pipeline.arrRef spec3 3)) (V c (Pipeline.arrRef spec3 4)) (((cfg3.win 5).blk t).view.emb j)
  obtain ⟨-, -, -, -, -, -, -, -, -, -, f0, f1⟩ := idx_facts t
  refine block_eq (V c (Pipeline.arrRef spec3 0)) (V c (Pipeline.arrRef spec3 1)) (V c (Pipeline.arrRef spec3 2)) (V c (Pipeline.arrRef spec3 3)) (V c (Pipeline.arrRef spec3 4))
    (iblk3 V c 0 t) (iblk3 V c 1 t) (iblk3 V c 2 t) (iblk3 V c 3 t) (iblk3 V c 4 t) t.val
    (fun j i h0 h1 => rows_0 V c t j i h0 h1) (fun j i h0 h1 => rows_1 V c t j i h0 h1)
    (whole_2 V c t) (whole_3 V c t) (whole_4 V c t) j (((cfg3.win 5).blk t).view.emb j) ?_ ?_
  · show win3_5.index t (0 : Fin 2) * 5000 + 1 * (j 0).val = 5000 * t.val + (j 0).val; omega
  · show win3_5.index t (1 : Fin 2) * 32 + 1 * (j 1).val = (j 1).val; omega

/-- An index of the result array is in point t's block iff each coordinate is in the block's range on its axis. -/
theorem mem_blk (t : Fin cfg3.N) (i : S100000x32.Idx) :
    i ∈ ((cfg3.win 5).blk t).view.set ↔ ∀ a : Fin 2, win3_5.index t a * S5000x32.size a ≤ (i a).val ∧ (i a).val < win3_5.index t a * S5000x32.size a + S5000x32.size a := by
  show i ∈ ((View.whole (Pipeline.arrRef spec3 5)).slice (win3_5.rect t)).set ↔ _
  rw [View.set_slice_whole, Rect.mem_set_unit]
  exact Iff.rfl

/-- Row r of the result lies in the block of point r / 5000, which writes it back. -/
theorem cover (c : Dev nD) (i : ((cfg3.win 5).arr.view.loc (c.tc : Thread nD τ)).2.ty.Idx) :
    ∃ t : Fin cfg3.N, (cfg3.win 5).flush t = true ∧ i ∈ ((cfg3.win 5).blk t).view.set := by
  have hN : cfg3.N = 20 := N_3
  have hi0 : ((i 0 : Fin 100000) : Nat) < 100000 := (i 0).isLt
  have hi1 : ((i 1 : Fin 32) : Nat) < 32 := (i 1).isLt
  obtain ⟨t, ht⟩ : ∃ t : Fin cfg3.N, t.val = (i 0).val / 5000 := ⟨⟨(i 0).val / 5000, by rw [hN]; omega⟩, rfl⟩
  obtain ⟨-, -, -, -, -, -, -, -, -, -, f0, f1⟩ := idx_facts t
  refine ⟨t, flush3_5 t, ?_⟩
  rw [mem_blk]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 32 ≤ (i 1).val ∧ (i 1).val < win3_5.index t (1 : Fin 2) * 32 + 32; omega

/-- THE RESULT ARRAY after the region: the layer of the arrays as the region finds them. -/
theorem final (c : Dev nD) :
    (dat3 (F := Ideal) V c).arrAt 5 cfg3.N
      = head32 (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 _ (fun t _ => flushed_eq V c t) (cover c)

end Cert.Sage.Region3

end
-- ==== Proof.RefLayers.lean ====
/-
  The reference's four graph layers, read as the network of whole-array functions.

  One layer of the reference is, on features f (100000 rows of 64),

      (dot(A f / C, Wlᵀ) + b) + dot(f, Wrᵀ),

  where A f adds, into each node's row, the rows of f at the sources of the edges that end in the node (the sum
  over the in-neighbours), and C is the node's in-degree clamped below by one, spread over the 64 features.  On the
  extended reals a quotient by a divisor that is not zero is the product with the divisor's reciprocal, whatever the
  dividend, and C ≥ 1; so A f / C is the in-neighbour mean A f · (1 / C).  The bias row added before or after the
  second product is the same sum.  Hence every layer of the reference is the layer of the network, and the two
  results are the two heads on the second hidden layer's features.
-/
import proofs.«138562_j36447092474375_1_alg».proof.Proof.Gen.ReferenceIdeal.Read
import proofs.«138562_j36447092474375_1_alg».proof.Proof.Network
import Idealize.ShloMosaic.Lib.IdealHost

noncomputable section

namespace Cert.Sage.Ref

open Cert.ReferenceIdeal Cert.ReferenceIdeal.Gen Idealize.ShloMosaic Idealize.ShloMosaic.TcCoe Idealize.SL.Sem
  Idealize.ShloMosaic.StableHlo Idealize.ShloMosaic.ValueIdx

/-! ## Single operations read at an index -/

theorem dot64_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
theorem dot64_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The 64-column product at (r, q) is the sum over the 64 contracted features. -/
theorem dot64_apply (l : FVec Ideal S100000x64 .f32) (r : FVec Ideal S64x64 .f32)
    (i : S100000x64.Idx) :
    Host.dotGeneral (F := Ideal) dot_S100000x64_S64x64_S100000x64_1_0_0_1_n_n none l r i
      = ∑ k : Fin 64, l (ix2 (i 0) k) * r (ix2 k (i 1)) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = ix2 (i 0) k :=
    funext fun a => Fin.ext (by
      match a with
      | ⟨0, _⟩ => exact dot64_l0 _ _
      | ⟨1, _⟩ => exact (dot_S100000x64_S64x64_S100000x64_1_0_0_1_n_n.lhsIdx_val_of_single rfl i _).trans hk)
  have er : dot_S100000x64_S64x64_S100000x64_1_0_0_1_n_n.rhsIdx i ((contrEquiv1 dot_S100000x64_S64x64_S100000x64_1_0_0_1_n_n 64 rfl rfl).symm k) = ix2 k (i 1) :=
    funext fun a => Fin.ext (by
      match a with
      | ⟨0, _⟩ => exact (dot_S100000x64_S64x64_S100000x64_1_0_0_1_n_n.rhsIdx_val_of_single rfl i _).trans hk
      | ⟨1, _⟩ => exact dot64_r1 _ _)
  rw [el, er]
  rfl

theorem dot32_l0 (i : S100000x32.Idx) (q : dot_S100000x64_S64x32_S100000x32_1_0_0_1_n_n.contr.Idx) : (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide),
    dif_pos (show (0 : Fin S100000x64.rank) ∈ dot_S100000x64_S64x32_S100000x32_1_0_0_1_n_n.lhsNonContracting by decide)]
  rfl
theorem dot32_r1 (i : S100000x32.Idx) (q : dot_S100000x64_S64x32_S100000x32_1_0_0_1_n_n.contr.Idx) : (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide),
    dif_pos (show (1 : Fin S64x32.rank) ∈ dot_S100000x64_S64x32_S100000x32_1_0_0_1_n_n.rhsNonContracting by decide)]
  rfl

/-- The 32-column product at (r, q) is the sum over the 64 contracted features. -/
theorem dot32_apply (l : FVec Ideal S100000x64 .f32) (r : FVec Ideal S64x32 .f32)
    (i : S100000x32.Idx) :
    Host.dotGeneral (F := Ideal) dot_S100000x64_S64x32_S100000x32_1_0_0_1_n_n none l r i
      = ∑ k : Fin 64, l (ix2 (i 0) k) * r (ix2 k (i 1)) := by
  simp only [Host.dotGeneral]
  rw [Ideal.dotGeneral_apply, ← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx i ((contrEquiv1 dot_S100000x64_S64x32_S100000x32_1_0_0_1_n_n 64 rfl rfl).symm k) = ix2 (i 0) k :=
    funext fun a => Fin.ext (by
      match a with
      | ⟨0, _⟩ => exact dot32_l0 _ _
      | ⟨1, _⟩ => exact (dot_S100000x64_S64x32_S100000x32_1_0_0_1_n_n.lhsIdx_val_of_single rfl i _).trans hk)
  have er : dot_S100000x64_S64x32_S100000x32_1_0_0_1_n_n.rhsIdx i ((contrEquiv1 dot_S100000x64_S64x32_S100000x32_1_0_0_1_n_n 64 rfl rfl).symm k) = ix2 k (i 1) :=
    funext fun a => Fin.ext (by
      match a with
      | ⟨0, _⟩ => exact (dot_S100000x64_S64x32_S100000x32_1_0_0_1_n_n.rhsIdx_val_of_single rfl i _).trans hk
      | ⟨1, _⟩ => exact dot32_r1 _ _)
  rw [el, er]
  rfl

/-- A column spread over the 64 features reads the column's row. -/
theorem spreadCol_apply {α : Type} (y : S100000x1.Idx → α) (j : S100000x64.Idx) :
    broadcastInDim S100000x64 ![0, 1] bcast_S100000x1_S100000x64_0_1 y j = y (ix2 (j 0) (0 : Fin 1)) :=
  broadcastInDim_apply _ bcast_S100000x1_S100000x64_0_1 y j (ix2 (j 0) (0 : Fin 1)) (fun a => match a with
    | ⟨0, _⟩ => by show (j 0).val = if (100000 : Nat) = 1 then 0 else (j 0).val; rw [if_neg (by decide)]
    | ⟨1, _⟩ => by show 0 = if (1 : Nat) = 1 then 0 else (j 1).val; rw [if_pos rfl])

/-- A vector over the nodes stood up as a column reads the vector. -/
theorem asCol_apply {α : Type} (y : S100000.Idx → α) (j : S100000x1.Idx) :
    broadcastInDim S100000x1 ![0] bcast_S100000_S100000x1_0 y j = y (ix1 (j 0)) :=
  broadcastInDim_apply _ bcast_S100000_S100000x1_0 y j (ix1 (j 0)) (fun a => match a with
    | ⟨0, _⟩ => by show (j 0).val = if (100000 : Nat) = 1 then 0 else (j 0).val; rw [if_neg (by decide)])

/-- A vector over the nodes stood up as a column and spread over the 64 features reads the vector at the row. -/
theorem spreadNode_apply {α : Type} (y : S100000.Idx → α) (j : S100000x64.Idx) :
    broadcastInDim S100000x64 ![0, 1] bcast_S100000x1_S100000x64_0_1
      (broadcastInDim S100000x1 ![0] bcast_S100000_S100000x1_0 y) j = y (ix1 (j 0)) := by
  rw [spreadCol_apply, asCol_apply]

/-- A bias of 64 laid as a row and spread over the nodes reads the bias at the column. -/
theorem biasSpread64_apply {α : Type} (b : S64.Idx → α) (i : S100000x64.Idx) :
    broadcastInDim S100000x64 ![0, 1] bcast_S1x64_S100000x64_0_1 (broadcastInDim S1x64 ![1] bcast_S64_S1x64_1 b) i
      = b (ix1 (i 1)) := by
  rw [broadcastInDim_apply _ bcast_S1x64_S100000x64_0_1 _ i (ix2 (0 : Fin 1) (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b (ix2 (0 : Fin 1) (i 1)) (ix1 (i 1)) (fun a => match a with
    | ⟨0, _⟩ => by show (i 1).val = if (64 : Nat) = 1 then 0 else (i 1).val; rw [if_neg (by decide)])

/-- A bias of 32 laid as a row and spread over the nodes reads the bias at the column. -/
theorem biasSpread32_apply {α : Type} (b : S32.Idx → α) (i : S100000x32.Idx) :
    broadcastInDim S100000x32 ![0, 1] bcast_S1x32_S100000x32_0_1 (broadcastInDim S1x32 ![1] bcast_S32_S1x32_1 b) i
      = b (ix1 (i 1)) := by
  rw [broadcastInDim_apply _ bcast_S1x32_S100000x32_0_1 _ i (ix2 (0 : Fin 1) (i 1)) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)])]
  exact broadcastInDim_apply _ bcast_S32_S1x32_1 b (ix2 (0 : Fin 1) (i 1)) (ix1 (i 1)) (fun a => match a with
    | ⟨0, _⟩ => by show (i 1).val = if (32 : Nat) = 1 then 0 else (i 1).val; rw [if_neg (by decide)])

/-- A bias of 64 recast as a row reads the bias at the column. -/
theorem biasRow64_apply {α : Type} (b : S64.Idx → α) (i : S100000x64.Idx) :
    shapeCast S1x64 b Cert.KernelIdeal.Facts₀.shapeCasts_S64_S1x64 (ix2 (0 : Fin 1) (i 1)) = b (ix1 (i 1)) :=
  shapeCast_apply b _ (ix2 (0 : Fin 1) (i 1)) (ix1 (i 1))
    (by rewrite [Shape.rowMajor_val_two, Shape.rowMajor_val_one]; show (i 1).val = 0 * 64 + (i 1).val; omega)

/-- A bias of 32 recast as a row reads the bias at the column. -/
theorem biasRow32_apply {α : Type} (b : S32.Idx → α) (i : S100000x32.Idx) :
    shapeCast S1x32 b Cert.KernelIdeal.Facts₀.shapeCasts_S32_S1x32 (ix2 (0 : Fin 1) (i 1)) = b (ix1 (i 1)) :=
  shapeCast_apply b _ (ix2 (0 : Fin 1) (i 1)) (ix1 (i 1))
    (by rewrite [Shape.rowMajor_val_two, Shape.rowMajor_val_one]; show (i 1).val = 0 * 32 + (i 1).val; omega)

/-! ## The reference's layer as a function of whole arrays -/

/-- The edges' sources: row 0 of the edge list. -/
def src (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The edges' destinations: row 1 of the edge list. -/
def dst (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- The sum of the features over each node's in-neighbours. -/
def nbrSum (ei : (⟨S2x1600000, .i32⟩ : BufTy).Contents (Elt Ideal)) (f : (⟨S100000x64, .f32⟩ : BufTy).Contents (Elt Ideal)) :
    (⟨S100000x64, .f32⟩ : BufTy).Contents (Elt Ideal) :=
  Host.scatterAdd (F := Ideal) scatter_S100000x64_S1600000x1_S1600000x64_1_0_0_1
    (broadcastInDim S100000x64 ![] bcast_S_S100000x64 (constant S_ .f32 0x00000000#32))
    (broadcastInDim S1600000x1 ![0] bcast_S1600000_S1600000x1_0 (dst ei))
    (Host.gather gather_S100000x64_S1600000x1_S1600000x64_1_0_n_n_0_1_164 f
      (broadcastInDim S1600000x1 ![0] bcast_S1600000_S1600000x1_0
        (select (cmpi .slt (src ei) (broadcastInDim S1600000 ![] bcast_S_S1600000 (constantI S_ 32 0#32)))
          (addi (src ei) (broadcastInDim S1600000 ![] bcast_S_S1600000 (constantI S_ 32 100000#32))) (src ei))))

/-- Each node's in-degree clamped below by one. -/
def deg (ei : (⟨S2x1600000, .i32⟩ : BufTy).Contents (Elt Ideal)) : (⟨S100000, .f32⟩ : BufTy).Contents (Elt Ideal) :=
  maximumf (F := Ideal)
    (Host.scatterAdd (F := Ideal) scatter_S100000_S1600000x1_S1600000_n_0_0_1
      (broadcastInDim S100000 ![] bcast_S_S100000 (constant S_ .f32 0x00000000#32))
      (broadcastInDim S1600000x1 ![0] bcast_S1600000_S1600000x1_0 (dst ei))
      (broadcastInDim S1600000 ![] bcast_S_S1600000 (constant S_ .f32 0x3F800000#32)))
    (broadcastInDim S100000 ![] bcast_S_S100000 (constant S_ .f32 0x3F800000#32))

/-- The reference's mean: the in-neighbour sum divided by the clamped in-degree spread over the features. -/
def mean (ei : (⟨S2x1600000, .i32⟩ : BufTy).Contents (Elt Ideal)) (f : (⟨S100000x64, .f32⟩ : BufTy).Contents (Elt Ideal)) :
    (⟨S100000x64, .f32⟩ : BufTy).Contents (Elt Ideal) :=
  Host.divf (F := Ideal) (φ := .f32) (nbrSum ei f)
    (broadcastInDim S100000x64 ![0, 1] bcast_S100000x1_S100000x64_0_1
      (broadcastInDim S100000x1 ![0] bcast_S100000_S100000x1_0 (deg ei)))

/-- A hidden layer as the reference writes it: (mean · Wlᵀ + b) + f · Wrᵀ, through the rectifier. -/
def hidden (ei : (⟨S2x1600000, .i32⟩ : BufTy).Contents (Elt Ideal)) (f : (⟨S100000x64, .f32⟩ : BufTy).Contents (Elt Ideal))
    (wl : (⟨S64x64, .f32⟩ : BufTy).Contents (Elt Ideal)) (b : (⟨S64, .f32⟩ : BufTy).Contents (Elt Ideal))
    (wr : (⟨S64x64, .f32⟩ : BufTy).Contents (Elt Ideal)) : (⟨S100000x64, .f32⟩ : BufTy).Contents (Elt Ideal) :=
  maximumf (F := Ideal)
    (addf (F := Ideal)
      (addf (F := Ideal)
        (Host.dotGeneral (F := Ideal) (φ₁ := .f32) (φ₂ := .f32) dot_S100000x64_S64x64_S100000x64_1_0_0_1_n_n none (mean ei f)
          (transpose S64x64 [1, 0] wl transposes_S64x64_S64x64_1_0))
        (broadcastInDim S100000x64 ![0, 1] bcast_S1x64_S100000x64_0_1 (broadcastInDim S1x64 ![1] bcast_S64_S1x64_1 b)))
      (Host.dotGeneral (F := Ideal) (φ₁ := .f32) (φ₂ := .f32) dot_S100000x64_S64x64_S100000x64_1_0_0_1_n_n none f
        (transpose S64x64 [1, 0] wr transposes_S64x64_S64x64_1_0)))
    (broadcastInDim S100000x64 ![] bcast_S_S100000x64 (constant S_ .f32 0x00000000#32))

/-- A head as the reference writes it: (mean · Wlᵀ + b) + f · Wrᵀ, 32 columns. -/
def head (ei : (⟨S2x1600000, .i32⟩ : BufTy).Contents (Elt Ideal)) (f : (⟨S100000x64, .f32⟩ : BufTy).Contents (Elt Ideal))
    (wl : (⟨S32x64, .f32⟩ : BufTy).Contents (Elt Ideal)) (b : (⟨S32, .f32⟩ : BufTy).Contents (Elt Ideal))
    (wr : (⟨S32x64, .f32⟩ : BufTy).Contents (Elt Ideal)) : (⟨S100000x32, .f32⟩ : BufTy).Contents (Elt Ideal) :=
  addf (F := Ideal)
    (addf (F := Ideal)
      (Host.dotGeneral (F := Ideal) (φ₁ := .f32) (φ₂ := .f32) dot_S100000x64_S64x32_S100000x32_1_0_0_1_n_n none (mean ei f)
        (transpose S64x32 [1, 0] wl transposes_S32x64_S64x32_1_0))
      (broadcastInDim S100000x32 ![0, 1] bcast_S1x32_S100000x32_0_1 (broadcastInDim S1x32 ![1] bcast_S32_S1x32_1 b)))
    (Host.dotGeneral (F := Ideal) (φ₁ := .f32) (φ₂ := .f32) dot_S100000x64_S64x32_S100000x32_1_0_0_1_n_n none f
      (transpose S64x32 [1, 0] wr transposes_S32x64_S64x32_1_0))

/-! ## The two results are two heads on two hidden layers -/

set_option maxRecDepth 65536 in
/-- The first result's printed term is the head on the second hidden layer, with the first six weight arguments
    in the hidden layers and arguments 8, 9, 10 in the head. -/
theorem out0_layers (m : (ℓ : Loc nD τ sig) → Buf (Elt Ideal) ℓ) (c : Dev nD) :
    Cert.ReferenceIdeal.Value.res_main_v86 (F := Ideal) m c
      = head (m ((c.tc : Thread nD τ).loc main_arg1))
          (hidden (m ((c.tc : Thread nD τ).loc main_arg1))
            (hidden (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) (m ((c.tc : Thread nD τ).loc main_arg10)) := by
  unfold Cert.ReferenceIdeal.Value.res_main_v86; rfl

set_option maxRecDepth 65536 in
/-- The second result's printed term likewise, with arguments 11, 12, 13 in the head. -/
theorem out1_layers (m : (ℓ : Loc nD τ sig) → Buf (Elt Ideal) ℓ) (c : Dev nD) :
    Cert.ReferenceIdeal.Value.res_main_v113 (F := Ideal) m c
      = head (m ((c.tc : Thread nD τ).loc main_arg1))
          (hidden (m ((c.tc : Thread nD τ).loc main_arg1))
            (hidden (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)))
          (m ((c.tc : Thread nD τ).loc main_arg11)) (m ((c.tc : Thread nD τ).loc main_arg12)) (m ((c.tc : Thread nD τ).loc main_arg13)) := by
  unfold Cert.ReferenceIdeal.Value.res_main_v113; rfl

/-! ## The reference's mean is the network's mean -/

/-- The reference's in-neighbour sum is the network's, term for term. -/
theorem nbrSum_eq (ei : (⟨S2x1600000, .i32⟩ : BufTy).Contents (Elt Ideal)) (f : (⟨S100000x64, .f32⟩ : BufTy).Contents (Elt Ideal)) :
    nbrSum ei f = K.nbrSum (K.src ei) (K.dst ei) f := rfl

/-- The reference's clamped in-degree is the network's, term for term. -/
theorem deg_eq (ei : (⟨S2x1600000, .i32⟩ : BufTy).Contents (Elt Ideal)) : deg ei = K.clampedDeg (K.dst ei) := rfl

/-- The clamped in-degree is at least one, so it is not zero. -/
theorem deg_ne_zero (ei : (⟨S2x1600000, .i32⟩ : BufTy).Contents (Elt Ideal)) (n : S100000.Idx) : deg ei n ≠ 0 := by
  have h : (1 : EReal) ≤ deg ei n := by
    unfold deg
    rw [maximumf_apply, broadcastInDim_scalar_apply, constant_apply, Ideal.ofBits_one_f32]
    exact le_max_right _ _
  intro e
  rw [e] at h
  exact absurd h (not_le.mpr zero_lt_one)

/-- The reference's mean at (r, k): the in-neighbour sum over the clamped in-degree of node r. -/
theorem mean_apply (ei : (⟨S2x1600000, .i32⟩ : BufTy).Contents (Elt Ideal)) (f : (⟨S100000x64, .f32⟩ : BufTy).Contents (Elt Ideal))
    (j : S100000x64.Idx) : mean ei f j = Ideal.div (nbrSum ei f j) (deg ei (ix1 (j 0))) := by
  unfold mean
  rw [hostDivf_apply, spreadNode_apply]

/-- The network's mean at (r, k) is the same quotient: the product with the reciprocal of a divisor that is not
    zero is the quotient, whatever the dividend. -/
theorem netMean_apply (ei : (⟨S2x1600000, .i32⟩ : BufTy).Contents (Elt Ideal)) (f : (⟨S100000x64, .f32⟩ : BufTy).Contents (Elt Ideal))
    (j : S100000x64.Idx) : Net.mean ei f j = Ideal.div (nbrSum ei f j) (deg ei (ix1 (j 0))) := by
  unfold Net.mean K.nbrMean K.recipDeg
  rw [mulf_apply, spreadNode_apply, hostDivf_apply, broadcastInDim_scalar_apply, constant_apply, Ideal.ofBits_one_f32,
    ← nbrSum_eq, ← deg_eq]
  exact Ideal.mul_one_div (deg_ne_zero ei _)

/-- The reference's mean is the network's mean. -/
theorem mean_eq (ei : (⟨S2x1600000, .i32⟩ : BufTy).Contents (Elt Ideal)) (f : (⟨S100000x64, .f32⟩ : BufTy).Contents (Elt Ideal)) :
    mean ei f = Net.mean ei f :=
  funext fun j => (mean_apply ei f j).trans (netMean_apply ei f j).symm

/-! ## Each layer of the reference is the network's layer -/

/-- A hidden layer of the reference is the network's hidden layer: the same two sums and the same bias, added in
    another order. -/
theorem hidden_eq (ei : (⟨S2x1600000, .i32⟩ : BufTy).Contents (Elt Ideal)) (f : (⟨S100000x64, .f32⟩ : BufTy).Contents (Elt Ideal))
    (wl : (⟨S64x64, .f32⟩ : BufTy).Contents (Elt Ideal)) (b : (⟨S64, .f32⟩ : BufTy).Contents (Elt Ideal))
    (wr : (⟨S64x64, .f32⟩ : BufTy).Contents (Elt Ideal)) : hidden ei f wl b wr = Net.hidden ei f wl b wr := by
  funext i
  unfold hidden Net.hidden hidden64 dense64
  rw [maximumf_apply, addf_apply, addf_apply, dot64_apply, dot64_apply, biasSpread64_apply, broadcastInDim_scalar_apply,
    constant_apply, mean_eq, add_right_comm, biasRow64_apply]

/-- A head of the reference is the network's head. -/
theorem head_eq (ei : (⟨S2x1600000, .i32⟩ : BufTy).Contents (Elt Ideal)) (f : (⟨S100000x64, .f32⟩ : BufTy).Contents (Elt Ideal))
    (wl : (⟨S32x64, .f32⟩ : BufTy).Contents (Elt Ideal)) (b : (⟨S32, .f32⟩ : BufTy).Contents (Elt Ideal))
    (wr : (⟨S32x64, .f32⟩ : BufTy).Contents (Elt Ideal)) : head ei f wl b wr = Net.head ei f wl b wr := by
  funext i
  unfold head Net.head head32
  rw [addf_apply, addf_apply, dot32_apply, dot32_apply, biasSpread32_apply, mean_eq, add_right_comm, biasRow32_apply]

/-! ## The two results -/

/-- The reference's first result is the network's first head on its second hidden layer. -/
theorem out0_eq (m : (ℓ : Loc nD τ sig) → Buf (Elt Ideal) ℓ) (c : Dev nD) :
    Cert.ReferenceIdeal.Value.res_main_v86 (F := Ideal) m c
      = Net.head (m ((c.tc : Thread nD τ).loc main_arg1))
          (Net.hidden (m ((c.tc : Thread nD τ).loc main_arg1))
            (Net.hidden (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)))
          (m ((c.tc : Thread nD τ).loc main_arg8)) (m ((c.tc : Thread nD τ).loc main_arg9)) (m ((c.tc : Thread nD τ).loc main_arg10)) := by
  rw [out0_layers, hidden_eq, hidden_eq, head_eq]

/-- The reference's second result is the network's second head on its second hidden layer. -/
theorem out1_eq (m : (ℓ : Loc nD τ sig) → Buf (Elt Ideal) ℓ) (c : Dev nD) :
    Cert.ReferenceIdeal.Value.res_main_v113 (F := Ideal) m c
      = Net.head (m ((c.tc : Thread nD τ).loc main_arg1))
          (Net.hidden (m ((c.tc : Thread nD τ).loc main_arg1))
            (Net.hidden (m ((c.tc : Thread nD τ).loc main_arg1)) (m ((c.tc : Thread nD τ).loc main_arg0))
              (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)))
          (m ((c.tc : Thread nD τ).loc main_arg11)) (m ((c.tc : Thread nD τ).loc main_arg12)) (m ((c.tc : Thread nD τ).loc main_arg13)) := by
  rw [out1_layers, hidden_eq, hidden_eq, head_eq]

end Cert.Sage.Ref

end
-- ==== Proof.lean ====
/-
  The certificate's proof.

  The kernel computes a four-layer graph network: before each of its four pallas regions the host gathers the
  current node features along the edges' sources, sums them into the edges' destinations and multiplies by the
  reciprocal of the in-degree clamped below by one; the region then forms, row block by row block,
  (mean · Wlᵀ + x · Wrᵀ) + b, the two hidden layers through max(·, 0).  The reference divides the neighbour sum
  by the clamped degree instead, and adds (mean · Wlᵀ + b) + x · Wrᵀ.

  On the extended reals a quotient by y ≠ 0 IS the product with the reciprocal (x / y = x · y⁻¹ and
  1 / y = y⁻¹), the clamped degree is at least one, and addition is commutative and associative; a change of
  float format is the identity and a block matrix product is the same sum over the 64 features as the whole
  one.  So both programs compute ONE function of the arguments, `Cert.Sage.Net`: the kernel's two result
  buffers are read off its run through the four regions (`Cert.Sage.Fold`, over each region's whole-array value,
  `Cert.Sage.Region0 … Region3`), the reference's off its run (`Cert.Sage.Ref`).  No input needs to be finite.
  The three frames are the generated ones; the idealization rewrote no operation, so `preserves` is trivial.
-/
import proofs.«138562_j36447092474375_1_alg».proof.Defs
import proofs.«138562_j36447092474375_1_alg».proof.Proof.Gen.Kernel
import proofs.«138562_j36447092474375_1_alg».proof.Proof.Gen.Kernel.Frame
import proofs.«138562_j36447092474375_1_alg».proof.Proof.Gen.KernelIdeal
import proofs.«138562_j36447092474375_1_alg».proof.Proof.Gen.KernelIdeal.Frame
import proofs.«138562_j36447092474375_1_alg».proof.Proof.Gen.ReferenceIdeal
import proofs.«138562_j36447092474375_1_alg».proof.Proof.Gen.ReferenceIdeal.Run
import proofs.«138562_j36447092474375_1_alg».proof.Proof.Gen.ReferenceIdeal.Read
import proofs.«138562_j36447092474375_1_alg».proof.Proof.Gen.Pre_finite_inputs
import proofs.«138562_j36447092474375_1_alg».proof.Proof.KernelRun
import proofs.«138562_j36447092474375_1_alg».proof.Proof.Fold
import proofs.«138562_j36447092474375_1_alg».proof.Proof.Region0
import proofs.«138562_j36447092474375_1_alg».proof.Proof.Region1
import proofs.«138562_j36447092474375_1_alg».proof.Proof.Region2
import proofs.«138562_j36447092474375_1_alg».proof.Proof.Region3
import proofs.«138562_j36447092474375_1_alg».proof.Proof.RefLayers
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the network's two heads of the arguments: the kernel's run read through its four
    regions, the reference's run read operation by operation, from memories that agree on the arguments. -/
theorem algebraic : Cert.algebraic_KernelIdeal_ReferenceIdeal := by
  intro m ρ m' ρ' _ hagree
  refine ⟨fun c => Cert.Sage.Net.head (m ((c.tc : Thread Cert.KernelIdeal.nD Cert.KernelIdeal.τ).loc Cert.KernelIdeal.main_arg1)) (Cert.Sage.Fold.h2 m c) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.Sage.Net.head (m ((c.tc : Thread Cert.KernelIdeal.nD Cert.KernelIdeal.τ).loc Cert.KernelIdeal.main_arg1)) (Cert.Sage.Fold.h2 m c) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c).1.trans (Cert.Sage.Fold.W8_mu m ρ Cert.Sage.Region0.final Cert.Sage.Region1.final Cert.Sage.Region2.final c),
       (h c).2.1.trans (Cert.Sage.Fold.W8_logstd m ρ Cert.Sage.Region0.final Cert.Sage.Region1.final Cert.Sage.Region3.final c),
       (h c).2.2⟩) (Cert.Sage.KernelRun.run_results (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.Sage.Ref.out0_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
    · rw [Cert.Sage.Ref.out1_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
